-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S1024x256 : Shape := ⟨2, ![1024, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x512 .f32) (main_arg8 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg7
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg8 main_v33

def fn {F : FTy → Type} [FloatOps F] (main_arg0 : FVec F S50000x512 .f32) (main_arg1 : FVec F S50000x512 .f32) (main_arg2 : IVec S2x400000 32) (main_arg3 : FVec F S1024x256 .f32) (main_arg4 : FVec F S256 .f32) (main_arg5 : FVec F S256x256 .f32) (main_arg6 : FVec F S256 .f32) (main_arg7 : FVec F S256x512 .f32) (main_arg8 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x512 : Shape := ⟨2, ![50000, 512]⟩
abbrev S2x400000 : Shape := ⟨2, ![2, 400000]⟩
abbrev S1024x256 : Shape := ⟨2, ![1024, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S1x400000 : Shape := ⟨2, ![1, 400000]⟩
abbrev S400000 : Shape := ⟨1, ![400000]⟩
abbrev S50000x1024 : Shape := ⟨2, ![50000, 1024]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S50000x256 : Shape := ⟨2, ![50000, 256]⟩
abbrev S1000x1024 : Shape := ⟨2, ![1000, 1024]⟩
abbrev S1000x256 : Shape := ⟨2, ![1000, 256]⟩
abbrev S1x256 : Shape := ⟨2, ![1, 256]⟩
abbrev S400000x256 : Shape := ⟨2, ![400000, 256]⟩
abbrev S2000x256 : Shape := ⟨2, ![2000, 256]⟩
abbrev S2000x1 : Shape := ⟨2, ![2000, 1]⟩
abbrev S2000x512 : Shape := ⟨2, ![2000, 512]⟩
abbrev S1x512 : Shape := ⟨2, ![1, 512]⟩

abbrev nBuf : Space → Nat
  | .hbm => 93
  | .vmem => 36
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S2x400000, .i32⟩
  | .hbm, ⟨3, _⟩ => ⟨S1024x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S1x400000, .i32⟩
  | .hbm, ⟨10, _⟩ => ⟨S400000, .i32⟩
  | .hbm, ⟨11, _⟩ => ⟨S1x400000, .i32⟩
  | .hbm, ⟨12, _⟩ => ⟨S400000, .i32⟩
  | .hbm, ⟨13, _⟩ => ⟨S50000x1024, .f32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S_, .f32⟩
  | .hbm, ⟨25, _⟩ => ⟨S400000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000, .f32⟩
  | .hbm, ⟨40, _⟩ => ⟨S_, .i32⟩
  | .hbm, ⟨41, _⟩ => ⟨S400000, .i32⟩
  | .hbm, ⟨42, _⟩ => ⟨S400000, .i1⟩
  | .hbm, ⟨43, _⟩ => ⟨S_, .i32⟩
  | .hbm, ⟨44, _⟩ => ⟨S400000, .i32⟩
  | .hbm, ⟨45, _⟩ => ⟨S400000, .i32⟩
  | .hbm, ⟨46, _⟩ => ⟨S400000, .i32⟩
  | .hbm, ⟨47, _⟩ => ⟨S400000x1, .i32⟩
  | .hbm, ⟨48, _⟩ => ⟨S400000, .f32⟩
  | .hbm, ⟨49, _⟩ => ⟨S400000, .f32⟩
  | .hbm, ⟨50, _⟩ => ⟨S50000, .f32⟩
  | .hbm, ⟨51, _⟩ => ⟨S50000x1, .f32⟩
  | .hbm, ⟨52, _⟩ => ⟨S_, .f32⟩
  | .hbm, ⟨53, _⟩ => ⟨S256, .f32⟩
  | .hbm, ⟨54, _⟩ => ⟨S50000x256, .f32⟩
  | .hbm, ⟨55, _⟩ => ⟨S_, .i32⟩
  | .hbm, ⟨56, _⟩ => ⟨S400000, .i32⟩
  | .hbm, ⟨57, _⟩ => ⟨S400000, .i1⟩
  | .hbm, ⟨58, _⟩ => ⟨S_, .i32⟩
  | .hbm, ⟨59, _⟩ => ⟨S400000, .i32⟩
  | .hbm, ⟨60, _⟩ => ⟨S400000, .i32⟩
  | .hbm, ⟨61, _⟩ => ⟨S400000, .i32⟩
  | .hbm, ⟨62, _⟩ => ⟨S400000x1, .i32⟩
  | .hbm, ⟨63, _⟩ => ⟨S400000x256, .f32⟩
  | .hbm, ⟨64, _⟩ => ⟨S400000x1, .f32⟩
  | .hbm, ⟨65, _⟩ => ⟨S400000x256, .f32⟩
  | .hbm, ⟨66, _⟩ => ⟨S400000x256, .f32⟩
  | .hbm, ⟨67, _⟩ => ⟨S_, .f32⟩
  | .hbm, ⟨68, _⟩ => ⟨S50000x256, .f32⟩
  | .hbm, ⟨69, _⟩ => ⟨S400000x1, .i32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S256, .f32⟩
  | .hbm, ⟨74, _⟩ => ⟨S50000x256, .f32⟩
  | .hbm, ⟨75, _⟩ => ⟨S_, .i32⟩
  | .hbm, ⟨76, _⟩ => ⟨S400000, .i32⟩
  | .hbm, ⟨77, _⟩ => ⟨S400000, .i1⟩
  | .hbm, ⟨78, _⟩ => ⟨S_, .i32⟩
  | .hbm, ⟨79, _⟩ => ⟨S400000, .i32⟩
  | .hbm, ⟨80, _⟩ => ⟨S400000, .i32⟩
  | .hbm, ⟨81, _⟩ => ⟨S400000, .i32⟩
  | .hbm, ⟨82, _⟩ => ⟨S400000x1, .i32⟩
  | .hbm, ⟨83, _⟩ => ⟨S400000x256, .f32⟩
  | .hbm, ⟨84, _⟩ => ⟨S400000x1, .f32⟩
  | .hbm, ⟨85, _⟩ => ⟨S400000x256, .f32⟩
  | .hbm, ⟨86, _⟩ => ⟨S400000x256, .f32⟩
  | .hbm, ⟨87, _⟩ => ⟨S_, .f32⟩
  | .hbm, ⟨88, _⟩ => ⟨S50000x256, .f32⟩
  | .hbm, ⟨89, _⟩ => ⟨S400000x1, .i32⟩
  | .hbm, ⟨90, _⟩ => ⟨S50000x256, .f32⟩
  | .hbm, ⟨91, _⟩ => ⟨S50000x256, .f32⟩
  | .hbm, ⟨92, _⟩ => ⟨S50000x512, .f32⟩
  | .local _ .vmem, ⟨0, _⟩ => ⟨S1000x1024, .f32⟩
  | .local _ .vmem, ⟨1, _⟩ => ⟨S1000x1024, .f32⟩
  | .local _ .vmem, ⟨2, _⟩ => ⟨S1024x256, .f32⟩
  | .local _ .vmem, ⟨3, _⟩ => ⟨S256, .f32⟩
  | .local _ .vmem, ⟨4, _⟩ => ⟨S1000x256, .f32⟩
  | .local _ .vmem, ⟨5, _⟩ => ⟨S1000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | .local _ .vmem, ⟨12, _⟩ => ⟨S256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x1, .f32⟩
  | .local _ .vmem, ⟨26, _⟩ => ⟨S2000x1, .f32⟩
  | .local _ .vmem, ⟨27, _⟩ => ⟨S256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x512, .f32⟩
  | .local _ .vmem, ⟨33, _⟩ => ⟨S512, .f32⟩
  | .local _ .vmem, ⟨34, _⟩ => ⟨S2000x512, .f32⟩
  | .local _ .vmem, ⟨35, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_c_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S50000x512_S50000x512_S50000x1024_d1 : Shape.Concatenates [S50000x512, S50000x512] S50000x1024 1
  bcast_S_S50000 : S_.BroadcastsInDim S50000 (![] : Fin 0 → Fin S50000.rank)
  bcast_S_S400000 : S_.BroadcastsInDim S400000 (![] : Fin 0 → Fin S400000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S_S256 : S_.BroadcastsInDim S256 (![] : Fin 0 → Fin S256.rank)
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x512_S256x512_0_0 : ∀ a, (![0, 0] : Fin 2 → Nat) a + S256x512.size a ≤ S256x512.size a
  h_S256x512 : 0 < S256x512.numel
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  dot_S1000x1024_S1024x256_S1000x256_1_0_0_1_n_n_wf : DotDims.WF S1000x1024 S1024x256 S1000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x256_S2000x256_1_0_0_1_n_n_wf : DotDims.WF S2000x256 S256x256 S2000x256 [1] [0] [0] [1] [] []
  dot_S2000x256_S256x512_S2000x512_1_0_0_1_n_n_wf : DotDims.WF S2000x256 S256x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S50000x1024.size a
  hwx0_0 : ∀ i : grid0.Coords, EltTy.bits .f32 = 32 ∨ (Rect.block (s := S50000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S50000x256.size a
  hwx0_3 : ∀ i : grid0.Coords, EltTy.bits .f32 = 32 ∨ (Rect.block (s := S50000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x512.size a ≤ S256x512.size a
  hwx4_1 : ∀ i : grid4.Coords, EltTy.bits .f32 = 32 ∨ (Rect.block (s := S256x512) S256x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512.size a ≤ S512.size a
  hwx4_2 : ∀ i : grid4.Coords, EltTy.bits .f32 = 32 ∨ (Rect.block (s := S512) S512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x512.size a ≤ S50000x512.size a
  hwx4_3 : ∀ i : grid4.Coords, EltTy.bits .f32 = 32 ∨ (Rect.block (s := S50000x512) S2000x512.size (cc4_transform_3 i) (hinb4_3 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf

abbrev win0_0 : Pipeline.Window sig grid0 :=
  Pipeline.Window.ofSpec (Memref.whole main_v4) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v64) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S2000x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S1024x256 : Shape := ⟨2, ![1024, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S1x400000 : Shape := ⟨2, ![1, 400000]⟩
abbrev S400000 : Shape := ⟨1, ![400000]⟩
abbrev S50000x1024 : Shape := ⟨2, ![50000, 1024]⟩
abbrev S50000x256 : Shape := ⟨2, ![50000, 256]⟩
abbrev S_ : Shape := ⟨0, ![]⟩
abbrev S50000 : Shape := ⟨1, ![50000]⟩
abbrev S400000x1 : Shape := ⟨2, ![400000, 1]⟩
abbrev S400000x256 : Shape := ⟨2, ![400000, 256]⟩
abbrev S50000x1 : Shape := ⟨2, ![50000, 1]⟩
abbrev S1x256 : Shape := ⟨2, ![1, 256]⟩
abbrev S1x512 : Shape := ⟨2, ![1, 512]⟩

abbrev nBuf : Space → Nat
  | .hbm => 146
  | .vmem => 0
  | .smem => 0
  | _ => 0

abbrev hbmTy0_0 (i : Nat) : BufTy := match i % 128 with
  | 0 => ⟨S50000x512, .f32⟩
  | 1 => ⟨S50000x512, .f32⟩
  | 2 => ⟨S2x400000, .i32⟩
  | 3 => ⟨S1024x256, .f32⟩
  | 4 => ⟨S256, .f32⟩
  | 5 => ⟨S256x256, .f32⟩
  | 6 => ⟨S256, .f32⟩
  | 7 => ⟨S256x512, .f32⟩
  | 8 => ⟨S512, .f32⟩
  | 9 => ⟨S1x400000, .i32⟩
  | 10 => ⟨S400000, .i32⟩
  | 11 => ⟨S1x400000, .i32⟩
  | 12 => ⟨S400000, .i32⟩
  | 13 => ⟨S50000x1024, .f32⟩
  | 14 => ⟨S50000x256, .f32⟩
  | 15 => ⟨S_, .f32⟩
  | 16 => ⟨S50000, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S_, .f32⟩
  | 26 => ⟨S400000, .f32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000, .f32⟩
  | 50 => ⟨S400000, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x256, .f32⟩
  | 60 => ⟨S400000x1, .f32⟩
  | 61 => ⟨S400000x256, .f32⟩
  | 62 => ⟨S400000x256, .f32⟩
  | 63 => ⟨S_, .f32⟩
  | 64 => ⟨S50000x256, .f32⟩
  | 65 => ⟨S400000x1, .i32⟩
  | 66 => ⟨S50000x256, .f32⟩
  | 67 => ⟨S50000, .f32⟩
  | 68 => ⟨S50000x1, .f32⟩
  | 69 => ⟨S50000x256, .f32⟩
  | 70 => ⟨S50000x256, .f32⟩
  | 71 => ⟨S50000x256, .f32⟩
  | 72 => ⟨S1x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S50000x256, .f32⟩
  | 79 => ⟨S_, .f32⟩
  | 80 => ⟨S50000, .f32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S_, .f32⟩
  | 90 => ⟨S400000, .f32⟩
  | 91 => ⟨S50000, .f32⟩
  | 92 => ⟨S_, .f32⟩
  | 93 => ⟨S50000, .f32⟩
  | 94 => ⟨S50000, .f32⟩
  | 95 => ⟨S50000, .f32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S400000, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S400000, .f32⟩
  | 114 => ⟨S400000, .f32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S400000x256, .f32⟩
  | 124 => ⟨S400000x1, .f32⟩
  | 125 => ⟨S400000x256, .f32⟩
  | 126 => ⟨S400000x256, .f32⟩
  | 127 => ⟨S_, .f32⟩
  | _ => ⟨S50000x512, .f32⟩

abbrev hbmTy0_1 (i : Nat) : BufTy := match i % 128 with
  | 0 => ⟨S50000x256, .f32⟩
  | 1 => ⟨S400000x1, .i32⟩
  | 2 => ⟨S50000x256, .f32⟩
  | 3 => ⟨S50000, .f32⟩
  | 4 => ⟨S50000x1, .f32⟩
  | 5 => ⟨S50000x256, .f32⟩
  | 6 => ⟨S50000x256, .f32⟩
  | 7 => ⟨S50000x256, .f32⟩
  | 8 => ⟨S1x256, .f32⟩
  | 9 => ⟨S50000x256, .f32⟩
  | 10 => ⟨S50000x256, .f32⟩
  | 11 => ⟨S_, .f32⟩
  | 12 => ⟨S50000x256, .f32⟩
  | 13 => ⟨S50000x256, .f32⟩
  | 14 => ⟨S50000x512, .f32⟩
  | 15 => ⟨S1x512, .f32⟩
  | 16 => ⟨S50000x512, .f32⟩
  | 17 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call0_cst : Ref sig .tc := ⟨.hbm, 75, rfl⟩
abbrev main_call0_v0 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_v68 : Ref sig .tc := ⟨.hbm, 97, rfl⟩
abbrev main_v69 : Ref sig .tc := ⟨.hbm, 98, rfl⟩
abbrev main_c_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_c_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_19 : Ref sig .tc := ⟨.hbm, 115, rfl⟩
abbrev main_v83 : Ref sig .tc := ⟨.hbm, 116, rfl⟩
abbrev main_v84 : Ref sig .tc := ⟨.hbm, 117, rfl⟩
abbrev main_c_20 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_21 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_call1_cst : Ref sig .tc := ⟨.hbm, 139, rfl⟩
abbrev main_call1_v0 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S50000x512_S50000x512_S50000x1024_d1 : Shape.Concatenates [S50000x512, S50000x512] S50000x1024 1
  bcast_S_S50000 : S_.BroadcastsInDim S50000 (![] : Fin 0 → Fin S50000.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  dot_S50000x1024_S1024x256_S50000x256_1_0_0_1_n_n_wf : DotDims.WF S50000x1024 S1024x256 S50000x256 [1] [0] [0] [1] [] []
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []
  dot_S50000x256_S256x512_S50000x512_1_0_0_1_n_n_wf : DotDims.WF S50000x256 S256x512 S50000x512 [1] [0] [0] [1] [] []

variable [Facts₀]

def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf

class Facts : Prop extends Facts₀ where

variable [Facts]
-- ==== Proof.KRun.lean ====
/-
  The idealized kernel's run, read to the end: every weakly fair execution of @main terminates, nothing faulting,
  and each buffer the host program keeps for the whole run (every unscoped buffer: the arguments, the host
  values, the five calls' results) ends holding the contents of the last segment boundary, `Gen.W9` — the fold of
  @main's nine segments (four stretches of host operations, five pallas_calls) from the launch memory. @main is the
  run of those segments in order; the launch rule for a list of segments gives the thread state after the last one,
  every kept buffer at `W9`, and the final state is read against it at EVERY kept buffer, so in particular at the
  result buffer. The value lemmas then walk `W9` back through the fold.
-/
import proofs.«165484_j41601053229622_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every kept buffer ends at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem (((c : Thread nD τ)).1, Proc.devRef .tc b) = W9 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

/-- The run with the result and the arguments singled out: the result buffer `main_v66` at the last boundary's
    contents, each argument array as launched. -/
theorem run : θ_run defs (onTc (τ := τ) (main (F := F))) ⟨m, fun _ => 0, ρ⟩ (fun r => ∀ c : Dev nD,
      r.2.mem ((c.tc : Thread nD τ).loc main_v66) = W9 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
    ⟨h c main_v66 (by decide),
     (h c main_arg0 (by decide)).trans (W9_main_arg0 m ρ c),
     (h c main_arg1 (by decide)).trans (W9_main_arg1 m ρ c),
     (h c main_arg2 (by decide)).trans (W9_main_arg2 m ρ c),
     (h c main_arg3 (by decide)).trans (W9_main_arg3 m ρ c),
     (h c main_arg4 (by decide)).trans (W9_main_arg4 m ρ c),
     (h c main_arg5 (by decide)).trans (W9_main_arg5 m ρ c),
     (h c main_arg6 (by decide)).trans (W9_main_arg6 m ρ c),
     (h c main_arg7 (by decide)).trans (W9_main_arg7 m ρ c),
     (h c main_arg8 (by decide)).trans (W9_main_arg8 m ρ c)⟩)
    (run_all m ρ)

end Cert.KernelIdeal.KRun

end
-- ==== Proof.Spec.lean ====
/-
  What each pallas_call of the graph-convolution network computes, as ONE function of whole arrays, spelled in the host
  operations (and the dimension records) of the reference program, so that the kernel's value and the reference's value
  are compared term against term.

  * `dense₁ / dense₂ / dense₃`: a linear layer, `x · w + b` with the bias row broadcast down the rows — the three
    row-tiled matrix-product calls (50000×1024 by 1024×256, 50000×256 by 256×256, 50000×256 by 256×512).
  * `combine`: one graph convolution's closing step, `max((a + h ⊙ d) + b, 0)`: the aggregated neighbour messages `a`,
    the node's own projection `h` scaled row by row by the self-loop weight `d` (a column, broadcast along the
    features), the bias row `b`, then the rectifier.
  * `dense_zero_bias`: with a bias row of zeros a linear layer is the bare matrix product — on the extended reals
    `y + 0 = y` for every `y`, infinite or not, so no finiteness is used.
-/
import proofs.«165484_j41601053229622_1_alg».proof.ReferenceIdeal
import proofs.«165484_j41601053229622_1_alg».proof.Proof.Gen.ReferenceIdeal
import Idealize.ShloMosaic.PureOps.Ideal
import Idealize.ShloMosaic.PureOps.Ideal.Laws

noncomputable section

namespace Cert.Spec

open Cert.ReferenceIdeal Cert.ReferenceIdeal.Facts₀ Idealize.ShloMosaic Idealize.ShloMosaic.TcCoe

variable {F : FTy → Type} [FloatOps F]

/-- The bias row `b` (256 features) broadcast down 50000 rows. -/
def biasRows256 (b : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 b)

/-- The bias row `b` (512 features) broadcast down 50000 rows. -/
def biasRows512 (b : (⟨S512, .f32⟩ : BufTy).Contents (Elt F)) : (⟨S50000x512, .f32⟩ : BufTy).Contents (Elt F) :=
  broadcastInDim S50000x512 ![0, 1] bcast_S1x512_S50000x512_0_1 (broadcastInDim S1x512 ![1] bcast_S512_S1x512_1 b)

/-- The first linear layer: 50000×1024 by 1024×256, plus the bias row. -/
def dense₁ (x : (⟨S50000x1024, .f32⟩ : BufTy).Contents (Elt F)) (w : (⟨S1024x256, .f32⟩ : BufTy).Contents (Elt F))
    (b : (⟨S256, .f32⟩ : BufTy).Contents (Elt F)) : (⟨S50000x256, .f32⟩ : BufTy).Contents (Elt F) :=
  addf (Host.dotGeneral dot_S50000x1024_S1024x256_S50000x256_1_0_0_1_n_n none x w) (biasRows256 b)

/-- The second linear layer: 50000×256 by 256×256, plus the bias row. -/
def dense₂ (x : (⟨S50000x256, .f32⟩ : BufTy).Contents (Elt F)) (w : (⟨S256x256, .f32⟩ : BufTy).Contents (Elt F))
    (b : (⟨S256, .f32⟩ : BufTy).Contents (Elt F)) : (⟨S50000x256, .f32⟩ : BufTy).Contents (Elt F) :=
  addf (Host.dotGeneral dot_S50000x256_S256x256_S50000x256_1_0_0_1_n_n none x w) (biasRows256 b)

/-- The last linear layer: 50000×256 by 256×512, plus the bias row. -/
def dense₃ (x : (⟨S50000x256, .f32⟩ : BufTy).Contents (Elt F)) (w : (⟨S256x512, .f32⟩ : BufTy).Contents (Elt F))
    (b : (⟨S512, .f32⟩ : BufTy).Contents (Elt F)) : (⟨S50000x512, .f32⟩ : BufTy).Contents (Elt F) :=
  addf (Host.dotGeneral dot_S50000x256_S256x512_S50000x512_1_0_0_1_n_n none x w) (biasRows512 b)

/-- A graph convolution's closing step: `max((a + h ⊙ d) + b, 0)`, the column `d` broadcast along the features and the
    row `b` down the rows. -/
def combine (a h : (⟨S50000x256, .f32⟩ : BufTy).Contents (Elt F)) (d : (⟨S50000x1, .f32⟩ : BufTy).Contents (Elt F))
    (b : (⟨S256, .f32⟩ : BufTy).Contents (Elt F)) : (⟨S50000x256, .f32⟩ : BufTy).Contents (Elt F) :=
  maximumf (addf (addf a (mulf h (broadcastInDim S50000x256 ![0, 1] bcast_S50000x1_S50000x256_0_1 d))) (biasRows256 b))
    (broadcastInDim S50000x256 ![] bcast_S_S50000x256 (constant S_ .f32 0x00000000#32))

end Cert.Spec

end
-- ==== Proof.Net.lean ====
/-
  The two-layer graph-convolution network as ONE function of the nine argument arrays, in the reference program's own host
  operations: the edge list's two rows (`rowOf`, `colOf`), negative indices wrapped by the node count (`wrapIdx`), the
  inverse square root of the in-degree with a self-loop (`invSqrtDeg`: one plus the number of edges into a node), the
  symmetric edge weight `invSqrtDeg[row] · invSqrtDeg[col]` (`edgeNorm`), the self-loop weight `invSqrtDeg²` as a column
  (`selfWeight`), the weighted sum of neighbour features into each node (`aggregate`: a gather along `row`, a scatter-add
  along `col`), one convolution `max((aggregate h + h ⊙ selfWeight) + b, 0)` of a projected feature array `h` (`conv`), and
  the whole network: project, convolve, project, convolve, and a last linear layer.

  Both programs compute the degree, the edge weights and the self-loop weights from the edge list alone; the reference
  recomputes them per layer and the kernel computes them once, which as functions of the edge list is the same thing.
  The kernel's first two projections add a bias row of zeros; `dense₁_zero_bias`, `dense₂_zero_bias` remove it:
  `y + 0 = y` on the extended reals for every `y`, finite or not.
-/
import proofs.«165484_j41601053229622_1_alg».proof.Proof.Spec

noncomputable section

namespace Cert.Spec

open Cert.ReferenceIdeal Cert.ReferenceIdeal.Facts₀ Idealize.ShloMosaic Idealize.ShloMosaic.TcCoe

variable {F : FTy → Type} [FloatOps F]

/-- The source node of every edge: row 0 of the edge list. -/
def rowOf (e : (⟨S2x400000, .i32⟩ : BufTy).Contents (Elt F)) : (⟨S400000, .i32⟩ : BufTy).Contents (Elt F) :=
  shapeCast _ (extractStridedSlice S1x400000 ![0, 0] e slices_S2x400000_S1x400000_0_0) shapeCasts_S1x400000_S400000

/-- The target node of every edge: row 1 of the edge list. -/
def colOf (e : (⟨S2x400000, .i32⟩ : BufTy).Contents (Elt F)) : (⟨S400000, .i32⟩ : BufTy).Contents (Elt F) :=
  shapeCast _ (extractStridedSlice S1x400000 ![1, 0] e slices_S2x400000_S1x400000_1_0) shapeCasts_S1x400000_S400000

/-- A negative node index counts from the end: `v + 50000` where `v < 0`, else `v`. -/
def wrapIdx (v : (⟨S400000, .i32⟩ : BufTy).Contents (Elt F)) : (⟨S400000, .i32⟩ : BufTy).Contents (Elt F) :=
  select (cmpi .slt v (broadcastInDim S400000 ![] bcast_S_S400000 (constantI S_ 32 0#32)))
    (addi v (broadcastInDim S400000 ![] bcast_S_S400000 (constantI S_ 32 50000#32))) v

/-- `(1 + in-degree)^(-1/2)` per node: ones scattered along the (wrapped) targets into zeros, plus one, inverse square root. -/
def invSqrtDeg (e : (⟨S2x400000, .i32⟩ : BufTy).Contents (Elt F)) : (⟨S50000, .f32⟩ : BufTy).Contents (Elt F) :=
  Host.rsqrt (addf (Host.scatterAdd scatter_S50000_S400000x1_S400000_n_0_0_1
      (broadcastInDim S50000 ![] bcast_S_S50000 (constant S_ .f32 0x00000000#32))
      (broadcastInDim S400000x1 ![0] bcast_S400000_S400000x1_0 (wrapIdx (colOf e)))
      (broadcastInDim S400000 ![] bcast_S_S400000 (constant S_ .f32 0x3F800000#32)))
    (broadcastInDim S50000 ![] bcast_S_S50000 (constant S_ .f32 0x3F800000#32)))

/-- The symmetric normalisation of an edge: the inverse root degree of its source times that of its target. -/
def edgeNorm (e : (⟨S2x400000, .i32⟩ : BufTy).Contents (Elt F)) : (⟨S400000, .f32⟩ : BufTy).Contents (Elt F) :=
  mulf (Host.gather gather_S50000_S400000x1_S400000_n_0_n_n_0_1_1 (invSqrtDeg e)
      (broadcastInDim S400000x1 ![0] bcast_S400000_S400000x1_0 (wrapIdx (rowOf e))))
    (Host.gather gather_S50000_S400000x1_S400000_n_0_n_n_0_1_1 (invSqrtDeg e)
      (broadcastInDim S400000x1 ![0] bcast_S400000_S400000x1_0 (wrapIdx (colOf e))))

/-- The self-loop's weight `invSqrtDeg²`, as a column. -/
def selfWeight (e : (⟨S2x400000, .i32⟩ : BufTy).Contents (Elt F)) : (⟨S50000x1, .f32⟩ : BufTy).Contents (Elt F) :=
  broadcastInDim S50000x1 ![0] bcast_S50000_S50000x1_0 (mulf (invSqrtDeg e) (invSqrtDeg e))

/-- Every node's weighted sum of its in-neighbours' features: rows of `h` gathered along the sources, scaled by the edge
    weight, scatter-added along the targets into zeros. -/
def aggregate (e : (⟨S2x400000, .i32⟩ : BufTy).Contents (Elt F)) (h : (⟨S50000x256, .f32⟩ : BufTy).Contents (Elt F)) : (⟨S50000x256, .f32⟩ : BufTy).Contents (Elt F) :=
  Host.scatterAdd scatter_S50000x256_S400000x1_S400000x256_1_0_0_1
    (broadcastInDim S50000x256 ![] bcast_S_S50000x256 (constant S_ .f32 0x00000000#32))
    (broadcastInDim S400000x1 ![0] bcast_S400000_S400000x1_0 (colOf e))
    (mulf (Host.gather gather_S50000x256_S400000x1_S400000x256_1_0_n_n_0_1_1256 h
        (broadcastInDim S400000x1 ![0] bcast_S400000_S400000x1_0 (wrapIdx (rowOf e))))
      (broadcastInDim S400000x256 ![0, 1] bcast_S400000x1_S400000x256_0_1
        (broadcastInDim S400000x1 ![0] bcast_S400000_S400000x1_0 (edgeNorm e))))

/-- One graph convolution of the projected features `h` with bias `b`, rectified. -/
def conv (e : (⟨S2x400000, .i32⟩ : BufTy).Contents (Elt F)) (h : (⟨S50000x256, .f32⟩ : BufTy).Contents (Elt F)) (b : (⟨S256, .f32⟩ : BufTy).Contents (Elt F)) : (⟨S50000x256, .f32⟩ : BufTy).Contents (Elt F) :=
  combine (aggregate e h) h (selfWeight e) b

/-- The two feature arrays side by side: 50000 × (512 + 512). -/
def joined (a0 a1 : (⟨S50000x512, .f32⟩ : BufTy).Contents (Elt F)) : (⟨S50000x1024, .f32⟩ : BufTy).Contents (Elt F) :=
  concatenate S50000x1024 1 [⟨S50000x512, a0⟩, ⟨S50000x512, a1⟩] concatenates_S50000x512_S50000x512_S50000x1024_d1

/-- The first projection, without a bias: 50000×1024 by 1024×256. -/
def proj₁ (x : (⟨S50000x1024, .f32⟩ : BufTy).Contents (Elt F)) (w : (⟨S1024x256, .f32⟩ : BufTy).Contents (Elt F)) : (⟨S50000x256, .f32⟩ : BufTy).Contents (Elt F) :=
  Host.dotGeneral dot_S50000x1024_S1024x256_S50000x256_1_0_0_1_n_n none x w

/-- The second projection, without a bias: 50000×256 by 256×256. -/
def proj₂ (x : (⟨S50000x256, .f32⟩ : BufTy).Contents (Elt F)) (w : (⟨S256x256, .f32⟩ : BufTy).Contents (Elt F)) : (⟨S50000x256, .f32⟩ : BufTy).Contents (Elt F) :=
  Host.dotGeneral dot_S50000x256_S256x256_S50000x256_1_0_0_1_n_n none x w

/-- The network: the two feature arrays joined side by side, projected, convolved, projected, convolved, and a last linear
    layer. -/
def network (a0 a1 : (⟨S50000x512, .f32⟩ : BufTy).Contents (Elt F)) (e : (⟨S2x400000, .i32⟩ : BufTy).Contents (Elt F))
    (w1 : (⟨S1024x256, .f32⟩ : BufTy).Contents (Elt F)) (b1 : (⟨S256, .f32⟩ : BufTy).Contents (Elt F)) (w2 : (⟨S256x256, .f32⟩ : BufTy).Contents (Elt F)) (b2 : (⟨S256, .f32⟩ : BufTy).Contents (Elt F))
    (wfc : (⟨S256x512, .f32⟩ : BufTy).Contents (Elt F)) (bfc : (⟨S512, .f32⟩ : BufTy).Contents (Elt F)) : (⟨S50000x512, .f32⟩ : BufTy).Contents (Elt F) :=
  dense₃ (conv e (proj₂ (conv e (proj₁ (joined a0 a1) w1) b1) w2) b2) wfc bfc

/-- A bias row of zeros broadcast down the rows adds nothing. -/
theorem dense₁_zero_bias (x : (⟨S50000x1024, .f32⟩ : BufTy).Contents (Elt Ideal)) (w : (⟨S1024x256, .f32⟩ : BufTy).Contents (Elt Ideal))
    (b : (⟨S256, .f32⟩ : BufTy).Contents (Elt Ideal)) (hb : ∀ i, b i = (0 : EReal)) :
    dense₁ (F := Ideal) x w b = proj₁ (F := Ideal) x w := by
  funext i
  have hz : biasRows256 (F := Ideal) b i = (0 : EReal) := hb _
  show (_ : EReal) + biasRows256 (F := Ideal) b i = _
  rw [hz, add_zero]
  rfl

/-- A bias row of zeros broadcast down the rows adds nothing. -/
theorem dense₂_zero_bias (x : (⟨S50000x256, .f32⟩ : BufTy).Contents (Elt Ideal)) (w : (⟨S256x256, .f32⟩ : BufTy).Contents (Elt Ideal))
    (b : (⟨S256, .f32⟩ : BufTy).Contents (Elt Ideal)) (hb : ∀ i, b i = (0 : EReal)) :
    dense₂ (F := Ideal) x w b = proj₂ (F := Ideal) x w := by
  funext i
  have hz : biasRows256 (F := Ideal) b i = (0 : EReal) := hb _
  show (_ : EReal) + biasRows256 (F := Ideal) b i = _
  rw [hz, add_zero]
  rfl

end Cert.Spec

end
-- ==== Proof.Fold.lean ====
/-
  The kernel's result, read back through @main. The run ends with every kept buffer at the last segment boundary's contents
  (`Gen.W9`); the boundaries are a fold from the launch memory — a stretch of host operations applies its operations
  (`StableHlo.after`), a pallas_call replaces its output array by what its write-backs leave and keeps everything else.
  This module walks the fold forward, boundary by boundary, naming at each boundary the contents of exactly the buffers a
  later segment reads:

  * after the first stretch: the edge list's rows, the edge weights, the self-loop weights (all functions of the edge list
    alone, computed once), the two feature arrays side by side, a bias row of zeros;
  * after call 0: the first projection (the zero bias row adds nothing: `Spec.dense₁_zero_bias`);
  * after the second stretch: the first layer's aggregated messages (`Spec.aggregate` of that projection);
  * after call 1: the first convolution; after call 2: its projection; after the last stretch: the second layer's
    messages; after call 3: the second convolution; after call 4: the network's result.

  A buffer no operation of a stretch writes, and no call outputs, keeps its contents across the segment; an INPUT array of a
  call passes through it unchanged. What each call computes on whole arrays is taken as a hypothesis here
  (`RegionValues`), proved call by call in the modules that read the kernels' bodies.
-/
import proofs.«165484_j41601053229622_1_alg».proof.Proof.Gen.KernelIdeal.Frame
import proofs.«165484_j41601053229622_1_alg».proof.Proof.Net
import Idealize.ShloMosaic.Lib.StableHlo.Run
import Idealize.ShloMosaic.PureOps.Ideal.Laws

set_option maxRecDepth 16384

noncomputable section

namespace Cert.KernelIdeal.Fold

open Cert.KernelIdeal Cert.KernelIdeal.Gen Cert.KernelIdeal.Facts₀
open Idealize.ShloMosaic Idealize.ShloMosaic.TcCoe Idealize.ShloMosaic.StableHlo Idealize.SL.Sem
open Idealize.ShloMosaic.Pipeline (Dat)

/-- What each of the five calls leaves in its output array, as a function of the arrays it finds on entry (any entry
    contents `V`): the three linear layers and the two convolution closings of `Cert.Spec`. -/
structure RegionValues : Prop where
  dense0 : ∀ (V : (c : Dev nD) → (b : Ref sig .tc) → Buf (Elt Ideal) ((c : Thread nD τ).loc b)) (c : Dev nD),
    (dat0 (F := Ideal) V c).arrAt 3 cfg0.N = Cert.Spec.dense₁ (F := Ideal) (V c main_v4) (V c main_arg3) (V c main_v34)
  combine1 : ∀ (V : (c : Dev nD) → (b : Ref sig .tc) → Buf (Elt Ideal) ((c : Thread nD τ).loc b)) (c : Dev nD),
    (dat1 (F := Ideal) V c).arrAt 4 cfg1.N = Cert.Spec.combine (F := Ideal) (V c main_v48) (V c main_v35) (V c main_v33) (V c main_arg4)
  dense2 : ∀ (V : (c : Dev nD) → (b : Ref sig .tc) → Buf (Elt Ideal) ((c : Thread nD τ).loc b)) (c : Dev nD),
    (dat2 (F := Ideal) V c).arrAt 3 cfg2.N = Cert.Spec.dense₂ (F := Ideal) (V c main_v49) (V c main_arg5) (V c main_v50)
  combine3 : ∀ (V : (c : Dev nD) → (b : Ref sig .tc) → Buf (Elt Ideal) ((c : Thread nD τ).loc b)) (c : Dev nD),
    (dat3 (F := Ideal) V c).arrAt 4 cfg3.N = Cert.Spec.combine (F := Ideal) (V c main_v64) (V c main_v51) (V c main_v33) (V c main_arg6)
  dense4 : ∀ (V : (c : Dev nD) → (b : Ref sig .tc) → Buf (Elt Ideal) ((c : Thread nD τ).loc b)) (c : Dev nD),
    (dat4 (F := Ideal) V c).arrAt 3 cfg4.N = Cert.Spec.dense₃ (F := Ideal) (V c main_v65) (V c main_arg7) (V c main_arg8)

variable (m : (ℓ : Loc nD τ sig) → Buf (Elt Ideal) ℓ) (ρ : Dev nD → PrngReg)

/-- An argument array's launch contents. -/
abbrev arg (c : Dev nD) (b : Ref sig .tc) : Buf (Elt Ideal) ((c : Thread nD τ).loc b) := m ((c : Thread nD τ).loc b)

/-- The first projection of the joined features. -/
abbrev h₁ (c : Dev nD) : (⟨S50000x256, .f32⟩ : BufTy).Contents (Elt Ideal) :=
  Cert.Spec.proj₁ (F := Ideal) (Cert.Spec.joined (F := Ideal) (arg m c main_arg0) (arg m c main_arg1)) (arg m c main_arg3)
/-- The first convolution. -/
abbrev x₂ (c : Dev nD) : (⟨S50000x256, .f32⟩ : BufTy).Contents (Elt Ideal) :=
  Cert.Spec.conv (F := Ideal) (arg m c main_arg2) (h₁ m c) (arg m c main_arg4)
/-- The second projection. -/
abbrev h₂ (c : Dev nD) : (⟨S50000x256, .f32⟩ : BufTy).Contents (Elt Ideal) :=
  Cert.Spec.proj₂ (F := Ideal) (x₂ m c) (arg m c main_arg5)
/-- The second convolution. -/
abbrev x₃ (c : Dev nD) : (⟨S50000x256, .f32⟩ : BufTy).Contents (Elt Ideal) :=
  Cert.Spec.conv (F := Ideal) (arg m c main_arg2) (h₂ m c) (arg m c main_arg6)

/-- The bias row of zeros the first two linear calls are given. -/
abbrev zeros256 : (⟨S256, .f32⟩ : BufTy).Contents (Elt Ideal) :=
  broadcastInDim S256 ![] Cert.KernelIdeal.Facts₀.bcast_S_S256 (constant (F := Ideal) S_ .f32 0x00000000#32)

theorem zeros256_apply (i : (⟨S256, .f32⟩ : BufTy).Idx) : zeros256 i = (0 : EReal) := Ideal.ofBits_zero_f32

set_option maxHeartbeats 4000000 in
theorem W1_v1 (c : Dev nD) : W1 m ρ c (Proc.devRef .tc main_v1) = Cert.Spec.rowOf (F := Ideal) (arg m c main_arg2) := by
  show StableHlo.after hostOps0 (W0 m ρ c) (Proc.devRef .tc main_v1) = _
  after_results_simp <;> rfl

set_option maxHeartbeats 4000000 in
theorem W1_v3 (c : Dev nD) : W1 m ρ c (Proc.devRef .tc main_v3) = Cert.Spec.colOf (F := Ideal) (arg m c main_arg2) := by
  show StableHlo.after hostOps0 (W0 m ρ c) (Proc.devRef .tc main_v3) = _
  after_results_simp <;> rfl

set_option maxHeartbeats 4000000 in
theorem W1_v31 (c : Dev nD) : W1 m ρ c (Proc.devRef .tc main_v31) = Cert.Spec.edgeNorm (F := Ideal) (arg m c main_arg2) := by
  show StableHlo.after hostOps0 (W0 m ρ c) (Proc.devRef .tc main_v31) = _
  after_results_simp <;> rfl

set_option maxHeartbeats 4000000 in
theorem W1_v33 (c : Dev nD) : W1 m ρ c (Proc.devRef .tc main_v33) = Cert.Spec.selfWeight (F := Ideal) (arg m c main_arg2) := by
  show StableHlo.after hostOps0 (W0 m ρ c) (Proc.devRef .tc main_v33) = _
  after_results_simp <;> rfl

set_option maxHeartbeats 4000000 in
theorem W1_v4 (c : Dev nD) : W1 m ρ c (Proc.devRef .tc main_v4) = Cert.Spec.joined (F := Ideal) (arg m c main_arg0) (arg m c main_arg1) := by
  show StableHlo.after hostOps0 (W0 m ρ c) (Proc.devRef .tc main_v4) = _
  after_results_simp <;> rfl

set_option maxHeartbeats 4000000 in
theorem W1_v34 (c : Dev nD) : W1 m ρ c (Proc.devRef .tc main_v34) = zeros256 := by
  show StableHlo.after hostOps0 (W0 m ρ c) (Proc.devRef .tc main_v34) = _
  after_results_simp <;> rfl

set_option maxHeartbeats 4000000 in
theorem W1_arg3 (c : Dev nD) : W1 m ρ c (Proc.devRef .tc main_arg3) = arg m c main_arg3 := by
  show StableHlo.after hostOps0 (W0 m ρ c) (Proc.devRef .tc main_arg3) = _
  after_results_simp <;> rfl

set_option maxHeartbeats 4000000 in
theorem W1_arg4 (c : Dev nD) : W1 m ρ c (Proc.devRef .tc main_arg4) = arg m c main_arg4 := by
  show StableHlo.after hostOps0 (W0 m ρ c) (Proc.devRef .tc main_arg4) = _
  after_results_simp <;> rfl

set_option maxHeartbeats 4000000 in
theorem W1_arg5 (c : Dev nD) : W1 m ρ c (Proc.devRef .tc main_arg5) = arg m c main_arg5 := by
  show StableHlo.after hostOps0 (W0 m ρ c) (Proc.devRef .tc main_arg5) = _
  after_results_simp <;> rfl

set_option maxHeartbeats 4000000 in
theorem W1_arg6 (c : Dev nD) : W1 m ρ c (Proc.devRef .tc main_arg6) = arg m c main_arg6 := by
  show StableHlo.after hostOps0 (W0 m ρ c) (Proc.devRef .tc main_arg6) = _
  after_results_simp <;> rfl

set_option maxHeartbeats 4000000 in
theorem W1_arg7 (c : Dev nD) : W1 m ρ c (Proc.devRef .tc main_arg7) = arg m c main_arg7 := by
  show StableHlo.after hostOps0 (W0 m ρ c) (Proc.devRef .tc main_arg7) = _
  after_results_simp <;> rfl

set_option maxHeartbeats 4000000 in
theorem W1_arg8 (c : Dev nD) : W1 m ρ c (Proc.devRef .tc main_arg8) = arg m c main_arg8 := by
  show StableHlo.after hostOps0 (W0 m ρ c) (Proc.devRef .tc main_arg8) = _
  after_results_simp <;> rfl

theorem W2_v1 (c : Dev nD) : W2 m ρ c (Proc.devRef .tc main_v1) = Cert.Spec.rowOf (F := Ideal) (arg m c main_arg2) :=
  (W2_of_ne m ρ c main_v1 (by decide)).trans (W1_v1 m ρ c)

theorem W2_v3 (c : Dev nD) : W2 m ρ c (Proc.devRef .tc main_v3) = Cert.Spec.colOf (F := Ideal) (arg m c main_arg2) :=
  (W2_of_ne m ρ c main_v3 (by decide)).trans (W1_v3 m ρ c)

theorem W2_v31 (c : Dev nD) : W2 m ρ c (Proc.devRef .tc main_v31) = Cert.Spec.edgeNorm (F := Ideal) (arg m c main_arg2) :=
  (W2_of_ne m ρ c main_v31 (by decide)).trans (W1_v31 m ρ c)

theorem W2_v33 (c : Dev nD) : W2 m ρ c (Proc.devRef .tc main_v33) = Cert.Spec.selfWeight (F := Ideal) (arg m c main_arg2) :=
  (W2_of_ne m ρ c main_v33 (by decide)).trans (W1_v33 m ρ c)

theorem W2_arg4 (c : Dev nD) : W2 m ρ c (Proc.devRef .tc main_arg4) = arg m c main_arg4 :=
  (W2_of_ne m ρ c main_arg4 (by decide)).trans (W1_arg4 m ρ c)

theorem W2_arg5 (c : Dev nD) : W2 m ρ c (Proc.devRef .tc main_arg5) = arg m c main_arg5 :=
  (W2_of_ne m ρ c main_arg5 (by decide)).trans (W1_arg5 m ρ c)

theorem W2_arg6 (c : Dev nD) : W2 m ρ c (Proc.devRef .tc main_arg6) = arg m c main_arg6 :=
  (W2_of_ne m ρ c main_arg6 (by decide)).trans (W1_arg6 m ρ c)

theorem W2_arg7 (c : Dev nD) : W2 m ρ c (Proc.devRef .tc main_arg7) = arg m c main_arg7 :=
  (W2_of_ne m ρ c main_arg7 (by decide)).trans (W1_arg7 m ρ c)

theorem W2_arg8 (c : Dev nD) : W2 m ρ c (Proc.devRef .tc main_arg8) = arg m c main_arg8 :=
  (W2_of_ne m ρ c main_arg8 (by decide)).trans (W1_arg8 m ρ c)

/-- The first call's result: the joined features times the first weight matrix (its bias row is zero). -/
theorem W2_v35 (R : RegionValues) (c : Dev nD) : W2 m ρ c (Proc.devRef .tc main_v35) = h₁ m c := by
  refine (W2_arr m ρ c 3).trans ((R.dense0 (V1 m ρ) c).trans ?_)
  show Cert.Spec.dense₁ (F := Ideal) (W1 m ρ c (Proc.devRef .tc main_v4)) (W1 m ρ c (Proc.devRef .tc main_arg3)) (W1 m ρ c (Proc.devRef .tc main_v34)) = _
  rw [W1_v4 m ρ c, W1_arg3 m ρ c, W1_v34 m ρ c]
  exact Cert.Spec.dense₁_zero_bias _ _ _ zeros256_apply

theorem W3_v1 (c : Dev nD) : W3 m ρ c (Proc.devRef .tc main_v1) = Cert.Spec.rowOf (F := Ideal) (arg m c main_arg2) :=
  (show StableHlo.after hostOps1 (W2 m ρ c) (Proc.devRef .tc main_v1) = W2 m ρ c (Proc.devRef .tc main_v1) by after_results_simp).trans (W2_v1 m ρ c)

theorem W3_v3 (c : Dev nD) : W3 m ρ c (Proc.devRef .tc main_v3) = Cert.Spec.colOf (F := Ideal) (arg m c main_arg2) :=
  (show StableHlo.after hostOps1 (W2 m ρ c) (Proc.devRef .tc main_v3) = W2 m ρ c (Proc.devRef .tc main_v3) by after_results_simp).trans (W2_v3 m ρ c)

theorem W3_v31 (c : Dev nD) : W3 m ρ c (Proc.devRef .tc main_v31) = Cert.Spec.edgeNorm (F := Ideal) (arg m c main_arg2) :=
  (show StableHlo.after hostOps1 (W2 m ρ c) (Proc.devRef .tc main_v31) = W2 m ρ c (Proc.devRef .tc main_v31) by after_results_simp).trans (W2_v31 m ρ c)

theorem W3_v33 (c : Dev nD) : W3 m ρ c (Proc.devRef .tc main_v33) = Cert.Spec.selfWeight (F := Ideal) (arg m c main_arg2) :=
  (show StableHlo.after hostOps1 (W2 m ρ c) (Proc.devRef .tc main_v33) = W2 m ρ c (Proc.devRef .tc main_v33) by after_results_simp).trans (W2_v33 m ρ c)

theorem W3_v35 (R : RegionValues) (c : Dev nD) : W3 m ρ c (Proc.devRef .tc main_v35) = h₁ m c :=
  (show StableHlo.after hostOps1 (W2 m ρ c) (Proc.devRef .tc main_v35) = W2 m ρ c (Proc.devRef .tc main_v35) by after_results_simp).trans (W2_v35 m ρ R c)

theorem W3_arg4 (c : Dev nD) : W3 m ρ c (Proc.devRef .tc main_arg4) = arg m c main_arg4 :=
  (show StableHlo.after hostOps1 (W2 m ρ c) (Proc.devRef .tc main_arg4) = W2 m ρ c (Proc.devRef .tc main_arg4) by after_results_simp).trans (W2_arg4 m ρ c)

theorem W3_arg5 (c : Dev nD) : W3 m ρ c (Proc.devRef .tc main_arg5) = arg m c main_arg5 :=
  (show StableHlo.after hostOps1 (W2 m ρ c) (Proc.devRef .tc main_arg5) = W2 m ρ c (Proc.devRef .tc main_arg5) by after_results_simp).trans (W2_arg5 m ρ c)

theorem W3_arg6 (c : Dev nD) : W3 m ρ c (Proc.devRef .tc main_arg6) = arg m c main_arg6 :=
  (show StableHlo.after hostOps1 (W2 m ρ c) (Proc.devRef .tc main_arg6) = W2 m ρ c (Proc.devRef .tc main_arg6) by after_results_simp).trans (W2_arg6 m ρ c)

theorem W3_arg7 (c : Dev nD) : W3 m ρ c (Proc.devRef .tc main_arg7) = arg m c main_arg7 :=
  (show StableHlo.after hostOps1 (W2 m ρ c) (Proc.devRef .tc main_arg7) = W2 m ρ c (Proc.devRef .tc main_arg7) by after_results_simp).trans (W2_arg7 m ρ c)

theorem W3_arg8 (c : Dev nD) : W3 m ρ c (Proc.devRef .tc main_arg8) = arg m c main_arg8 :=
  (show StableHlo.after hostOps1 (W2 m ρ c) (Proc.devRef .tc main_arg8) = W2 m ρ c (Proc.devRef .tc main_arg8) by after_results_simp).trans (W2_arg8 m ρ c)

set_option maxHeartbeats 4000000 in
/-- The first layer's aggregated messages: the second stretch of host operations is `aggregate` of the first projection. -/
theorem W3_v48 (R : RegionValues) (c : Dev nD) : W3 m ρ c (Proc.devRef .tc main_v48) = Cert.Spec.aggregate (F := Ideal) (arg m c main_arg2) (h₁ m c) := by
  show StableHlo.after hostOps1 (W2 m ρ c) (Proc.devRef .tc main_v48) = _
  after_results_simp
  rw [W2_v35 m ρ R c, W2_v1 m ρ c, W2_v3 m ρ c, W2_v31 m ρ c]
  rfl

theorem W4_v1 (c : Dev nD) : W4 m ρ c (Proc.devRef .tc main_v1) = Cert.Spec.rowOf (F := Ideal) (arg m c main_arg2) :=
  (W4_of_ne m ρ c main_v1 (by decide)).trans (W3_v1 m ρ c)

theorem W4_v3 (c : Dev nD) : W4 m ρ c (Proc.devRef .tc main_v3) = Cert.Spec.colOf (F := Ideal) (arg m c main_arg2) :=
  (W4_of_ne m ρ c main_v3 (by decide)).trans (W3_v3 m ρ c)

theorem W4_v31 (c : Dev nD) : W4 m ρ c (Proc.devRef .tc main_v31) = Cert.Spec.edgeNorm (F := Ideal) (arg m c main_arg2) :=
  (W4_of_ne m ρ c main_v31 (by decide)).trans (W3_v31 m ρ c)

theorem W4_arg5 (c : Dev nD) : W4 m ρ c (Proc.devRef .tc main_arg5) = arg m c main_arg5 :=
  (W4_of_ne m ρ c main_arg5 (by decide)).trans (W3_arg5 m ρ c)

theorem W4_arg6 (c : Dev nD) : W4 m ρ c (Proc.devRef .tc main_arg6) = arg m c main_arg6 :=
  (W4_of_ne m ρ c main_arg6 (by decide)).trans (W3_arg6 m ρ c)

theorem W4_arg7 (c : Dev nD) : W4 m ρ c (Proc.devRef .tc main_arg7) = arg m c main_arg7 :=
  (W4_of_ne m ρ c main_arg7 (by decide)).trans (W3_arg7 m ρ c)

theorem W4_arg8 (c : Dev nD) : W4 m ρ c (Proc.devRef .tc main_arg8) = arg m c main_arg8 :=
  (W4_of_ne m ρ c main_arg8 (by decide)).trans (W3_arg8 m ρ c)

theorem W4_v33 (c : Dev nD) : W4 m ρ c (Proc.devRef .tc main_v33) = Cert.Spec.selfWeight (F := Ideal) (arg m c main_arg2) :=
  ((W4_arr m ρ c 2).trans (((dat1 (V3 m ρ) c).arrAt_in 2 rfl _).trans (A_eq1 (V3 m ρ) c 2))).trans (W3_v33 m ρ c)

/-- The second call's result: the first convolution. -/
theorem W4_v49 (R : RegionValues) (c : Dev nD) : W4 m ρ c (Proc.devRef .tc main_v49) = x₂ m c := by
  refine (W4_arr m ρ c 4).trans ((R.combine1 (V3 m ρ) c).trans ?_)
  show Cert.Spec.combine (F := Ideal) (W3 m ρ c (Proc.devRef .tc main_v48)) (W3 m ρ c (Proc.devRef .tc main_v35)) (W3 m ρ c (Proc.devRef .tc main_v33)) (W3 m ρ c (Proc.devRef .tc main_arg4)) = _
  rw [W3_v48 m ρ R c, W3_v35 m ρ R c, W3_v33 m ρ c, W3_arg4 m ρ c]
  rfl

theorem W5_v1 (c : Dev nD) : W5 m ρ c (Proc.devRef .tc main_v1) = Cert.Spec.rowOf (F := Ideal) (arg m c main_arg2) :=
  (show StableHlo.after hostOps2 (W4 m ρ c) (Proc.devRef .tc main_v1) = W4 m ρ c (Proc.devRef .tc main_v1) by after_results_simp).trans (W4_v1 m ρ c)

theorem W5_v3 (c : Dev nD) : W5 m ρ c (Proc.devRef .tc main_v3) = Cert.Spec.colOf (F := Ideal) (arg m c main_arg2) :=
  (show StableHlo.after hostOps2 (W4 m ρ c) (Proc.devRef .tc main_v3) = W4 m ρ c (Proc.devRef .tc main_v3) by after_results_simp).trans (W4_v3 m ρ c)

theorem W5_v31 (c : Dev nD) : W5 m ρ c (Proc.devRef .tc main_v31) = Cert.Spec.edgeNorm (F := Ideal) (arg m c main_arg2) :=
  (show StableHlo.after hostOps2 (W4 m ρ c) (Proc.devRef .tc main_v31) = W4 m ρ c (Proc.devRef .tc main_v31) by after_results_simp).trans (W4_v31 m ρ c)

theorem W5_v33 (c : Dev nD) : W5 m ρ c (Proc.devRef .tc main_v33) = Cert.Spec.selfWeight (F := Ideal) (arg m c main_arg2) :=
  (show StableHlo.after hostOps2 (W4 m ρ c) (Proc.devRef .tc main_v33) = W4 m ρ c (Proc.devRef .tc main_v33) by after_results_simp).trans (W4_v33 m ρ c)

theorem W5_v49 (R : RegionValues) (c : Dev nD) : W5 m ρ c (Proc.devRef .tc main_v49) = x₂ m c :=
  (show StableHlo.after hostOps2 (W4 m ρ c) (Proc.devRef .tc main_v49) = W4 m ρ c (Proc.devRef .tc main_v49) by after_results_simp).trans (W4_v49 m ρ R c)

theorem W5_arg5 (c : Dev nD) : W5 m ρ c (Proc.devRef .tc main_arg5) = arg m c main_arg5 :=
  (show StableHlo.after hostOps2 (W4 m ρ c) (Proc.devRef .tc main_arg5) = W4 m ρ c (Proc.devRef .tc main_arg5) by after_results_simp).trans (W4_arg5 m ρ c)

theorem W5_arg6 (c : Dev nD) : W5 m ρ c (Proc.devRef .tc main_arg6) = arg m c main_arg6 :=
  (show StableHlo.after hostOps2 (W4 m ρ c) (Proc.devRef .tc main_arg6) = W4 m ρ c (Proc.devRef .tc main_arg6) by after_results_simp).trans (W4_arg6 m ρ c)

theorem W5_arg7 (c : Dev nD) : W5 m ρ c (Proc.devRef .tc main_arg7) = arg m c main_arg7 :=
  (show StableHlo.after hostOps2 (W4 m ρ c) (Proc.devRef .tc main_arg7) = W4 m ρ c (Proc.devRef .tc main_arg7) by after_results_simp).trans (W4_arg7 m ρ c)

theorem W5_arg8 (c : Dev nD) : W5 m ρ c (Proc.devRef .tc main_arg8) = arg m c main_arg8 :=
  (show StableHlo.after hostOps2 (W4 m ρ c) (Proc.devRef .tc main_arg8) = W4 m ρ c (Proc.devRef .tc main_arg8) by after_results_simp).trans (W4_arg8 m ρ c)

set_option maxHeartbeats 4000000 in
theorem W5_v50 (c : Dev nD) : W5 m ρ c (Proc.devRef .tc main_v50) = zeros256 := by
  show StableHlo.after hostOps2 (W4 m ρ c) (Proc.devRef .tc main_v50) = _
  after_results_simp <;> rfl

theorem W6_v1 (c : Dev nD) : W6 m ρ c (Proc.devRef .tc main_v1) = Cert.Spec.rowOf (F := Ideal) (arg m c main_arg2) :=
  (W6_of_ne m ρ c main_v1 (by decide)).trans (W5_v1 m ρ c)

theorem W6_v3 (c : Dev nD) : W6 m ρ c (Proc.devRef .tc main_v3) = Cert.Spec.colOf (F := Ideal) (arg m c main_arg2) :=
  (W6_of_ne m ρ c main_v3 (by decide)).trans (W5_v3 m ρ c)

theorem W6_v31 (c : Dev nD) : W6 m ρ c (Proc.devRef .tc main_v31) = Cert.Spec.edgeNorm (F := Ideal) (arg m c main_arg2) :=
  (W6_of_ne m ρ c main_v31 (by decide)).trans (W5_v31 m ρ c)

theorem W6_v33 (c : Dev nD) : W6 m ρ c (Proc.devRef .tc main_v33) = Cert.Spec.selfWeight (F := Ideal) (arg m c main_arg2) :=
  (W6_of_ne m ρ c main_v33 (by decide)).trans (W5_v33 m ρ c)

theorem W6_arg6 (c : Dev nD) : W6 m ρ c (Proc.devRef .tc main_arg6) = arg m c main_arg6 :=
  (W6_of_ne m ρ c main_arg6 (by decide)).trans (W5_arg6 m ρ c)

theorem W6_arg7 (c : Dev nD) : W6 m ρ c (Proc.devRef .tc main_arg7) = arg m c main_arg7 :=
  (W6_of_ne m ρ c main_arg7 (by decide)).trans (W5_arg7 m ρ c)

theorem W6_arg8 (c : Dev nD) : W6 m ρ c (Proc.devRef .tc main_arg8) = arg m c main_arg8 :=
  (W6_of_ne m ρ c main_arg8 (by decide)).trans (W5_arg8 m ρ c)

/-- The third call's result: the first convolution times the second weight matrix (its bias row is zero). -/
theorem W6_v51 (R : RegionValues) (c : Dev nD) : W6 m ρ c (Proc.devRef .tc main_v51) = h₂ m c := by
  refine (W6_arr m ρ c 3).trans ((R.dense2 (V5 m ρ) c).trans ?_)
  show Cert.Spec.dense₂ (F := Ideal) (W5 m ρ c (Proc.devRef .tc main_v49)) (W5 m ρ c (Proc.devRef .tc main_arg5)) (W5 m ρ c (Proc.devRef .tc main_v50)) = _
  rw [W5_v49 m ρ R c, W5_arg5 m ρ c, W5_v50 m ρ c]
  exact Cert.Spec.dense₂_zero_bias _ _ _ zeros256_apply

theorem W7_v33 (c : Dev nD) : W7 m ρ c (Proc.devRef .tc main_v33) = Cert.Spec.selfWeight (F := Ideal) (arg m c main_arg2) :=
  (show StableHlo.after hostOps3 (W6 m ρ c) (Proc.devRef .tc main_v33) = W6 m ρ c (Proc.devRef .tc main_v33) by after_results_simp).trans (W6_v33 m ρ c)

theorem W7_v51 (R : RegionValues) (c : Dev nD) : W7 m ρ c (Proc.devRef .tc main_v51) = h₂ m c :=
  (show StableHlo.after hostOps3 (W6 m ρ c) (Proc.devRef .tc main_v51) = W6 m ρ c (Proc.devRef .tc main_v51) by after_results_simp).trans (W6_v51 m ρ R c)

theorem W7_arg6 (c : Dev nD) : W7 m ρ c (Proc.devRef .tc main_arg6) = arg m c main_arg6 :=
  (show StableHlo.after hostOps3 (W6 m ρ c) (Proc.devRef .tc main_arg6) = W6 m ρ c (Proc.devRef .tc main_arg6) by after_results_simp).trans (W6_arg6 m ρ c)

theorem W7_arg7 (c : Dev nD) : W7 m ρ c (Proc.devRef .tc main_arg7) = arg m c main_arg7 :=
  (show StableHlo.after hostOps3 (W6 m ρ c) (Proc.devRef .tc main_arg7) = W6 m ρ c (Proc.devRef .tc main_arg7) by after_results_simp).trans (W6_arg7 m ρ c)

theorem W7_arg8 (c : Dev nD) : W7 m ρ c (Proc.devRef .tc main_arg8) = arg m c main_arg8 :=
  (show StableHlo.after hostOps3 (W6 m ρ c) (Proc.devRef .tc main_arg8) = W6 m ρ c (Proc.devRef .tc main_arg8) by after_results_simp).trans (W6_arg8 m ρ c)

set_option maxHeartbeats 4000000 in
/-- The second layer's aggregated messages. -/
theorem W7_v64 (R : RegionValues) (c : Dev nD) : W7 m ρ c (Proc.devRef .tc main_v64) = Cert.Spec.aggregate (F := Ideal) (arg m c main_arg2) (h₂ m c) := by
  show StableHlo.after hostOps3 (W6 m ρ c) (Proc.devRef .tc main_v64) = _
  after_results_simp
  rw [W6_v51 m ρ R c, W6_v1 m ρ c, W6_v3 m ρ c, W6_v31 m ρ c]
  rfl

theorem W8_arg7 (c : Dev nD) : W8 m ρ c (Proc.devRef .tc main_arg7) = arg m c main_arg7 :=
  (W8_of_ne m ρ c main_arg7 (by decide)).trans (W7_arg7 m ρ c)

theorem W8_arg8 (c : Dev nD) : W8 m ρ c (Proc.devRef .tc main_arg8) = arg m c main_arg8 :=
  (W8_of_ne m ρ c main_arg8 (by decide)).trans (W7_arg8 m ρ c)

/-- The fourth call's result: the second convolution. -/
theorem W8_v65 (R : RegionValues) (c : Dev nD) : W8 m ρ c (Proc.devRef .tc main_v65) = x₃ m c := by
  refine (W8_arr m ρ c 4).trans ((R.combine3 (V7 m ρ) c).trans ?_)
  show Cert.Spec.combine (F := Ideal) (W7 m ρ c (Proc.devRef .tc main_v64)) (W7 m ρ c (Proc.devRef .tc main_v51)) (W7 m ρ c (Proc.devRef .tc main_v33)) (W7 m ρ c (Proc.devRef .tc main_arg6)) = _
  rw [W7_v64 m ρ R c, W7_v51 m ρ R c, W7_v33 m ρ c, W7_arg6 m ρ c]
  rfl

/-- THE RESULT: the last call's output array, the last boundary's contents at `main_v66`, is the network of the launch
    contents of the nine arguments. -/
theorem result (R : RegionValues) (c : Dev nD) : W9 m ρ c (Proc.devRef .tc main_v66)
    = Cert.Spec.network (F := Ideal) (arg m c main_arg0) (arg m c main_arg1) (arg m c main_arg2) (arg m c main_arg3) (arg m c main_arg4) (arg m c main_arg5) (arg m c main_arg6) (arg m c main_arg7) (arg m c main_arg8) := by
  refine (W9_arr m ρ c 3).trans ((R.dense4 (V8 m ρ) c).trans ?_)
  show Cert.Spec.dense₃ (F := Ideal) (W8 m ρ c (Proc.devRef .tc main_v65)) (W8 m ρ c (Proc.devRef .tc main_arg7)) (W8 m ρ c (Proc.devRef .tc main_arg8)) = _
  rw [W8_v65 m ρ R c, W8_arg7 m ρ c, W8_arg8 m ρ c]
  rfl

end Cert.KernelIdeal.Fold

end
-- ==== Proof.RefNet.lean ====
/-
  The reference program's result is the network function of its nine argument arrays: its host operations, composed, are
  the definitions of `Cert.Spec` unfolded — the projections, the degree normalisation recomputed in each layer, the
  gather / scatter-add aggregation, the self-loop term, the bias, the rectifier, and the last linear layer.
-/
import proofs.«165484_j41601053229622_1_alg».proof.Proof.Gen.ReferenceIdeal.Run
import proofs.«165484_j41601053229622_1_alg».proof.Proof.Net

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxHeartbeats 2000000 in
/-- The reference run's result term is the network of the launch contents of the arguments. -/
theorem result_eq (m : (ℓ : Loc nD τ sig) → Buf (Elt F) ℓ) (c : Dev nD) :
    Cert.ReferenceIdeal.Value.res_main_v108 (F := F) m c
      = Cert.Spec.network (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  unfold Cert.ReferenceIdeal.Value.res_main_v108
  rfl

end Cert.ReferenceIdeal.RefValue

end
-- ==== Proof.DotRead.lean ====
/-
  The reference's linear layers read at an index. On the extended reals the host's matrix product at `(r, q)` is the sum
  over the contraction positions `k` of `x(r, k) · w(k, q)`; the bias row broadcast down the rows is the bias at the
  column. So each of the three linear layers, at `(r, q)`, is `Σ_k x(r, k) · w(k, q) + b(q)`.
-/
import proofs.«165484_j41601053229622_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Spec

open Cert.ReferenceIdeal Cert.ReferenceIdeal.Facts₀ Idealize.ShloMosaic Idealize.ShloMosaic.TcCoe Idealize.ShloMosaic.ValueIdx

/-! ## The bias rows -/

/-- The bias row broadcast down the 50000 rows, at `(r, q)`: the bias at `q`, whatever the row. -/
theorem biasRows256_apply (b : (⟨S256, .f32⟩ : BufTy).Contents (Elt Ideal)) (r : Fin 50000) (q : Fin 256) :
    biasRows256 (F := Ideal) b (ix2 r q) = b (ix1 q) := by
  unfold biasRows256
  refine (broadcastInDim_apply _ bcast_S1x256_S50000x256_0_1 _ (ix2 r q) (ix2 (0 : Fin 1) q) (fun a => ?_)).trans
    (broadcastInDim_apply _ bcast_S256_S1x256_1 b (ix2 (0 : Fin 1) q) (ix1 q) (fun a => ?_))
  · match a with
    | ⟨0, _⟩ => rfl
    | ⟨1, _⟩ => rfl
  · match a with
    | ⟨0, _⟩ => rfl

/-- The bias row broadcast down the 50000 rows, at `(r, q)`: the bias at `q`, whatever the row. -/
theorem biasRows512_apply (b : (⟨S512, .f32⟩ : BufTy).Contents (Elt Ideal)) (r : Fin 50000) (q : Fin 512) :
    biasRows512 (F := Ideal) b (ix2 r q) = b (ix1 q) := by
  unfold biasRows512
  refine (broadcastInDim_apply _ bcast_S1x512_S50000x512_0_1 _ (ix2 r q) (ix2 (0 : Fin 1) q) (fun a => ?_)).trans
    (broadcastInDim_apply _ bcast_S512_S1x512_1 b (ix2 (0 : Fin 1) q) (ix1 q) (fun a => ?_))
  · match a with
    | ⟨0, _⟩ => rfl
    | ⟨1, _⟩ => rfl
  · match a with
    | ⟨0, _⟩ => rfl

/-! ## The 50000×1024 by 1024×256 product -/

/-- The left operand's row is the output's row. -/
theorem lhs₁_row (i : S50000x256.Idx) (k : dot_S50000x1024_S1024x256_S50000x256_1_0_0_1_n_n.contr.Idx) :
    (dot_S50000x1024_S1024x256_S50000x256_1_0_0_1_n_n.lhsIdx i k 0).val = (i 0).val := by
  unfold DotDims.lhsIdx
  rw [dif_neg (show ¬(0 : Fin S50000x1024.rank) ∈ dot_S50000x1024_S1024x256_S50000x256_1_0_0_1_n_n.lhsBatch by decide), dif_pos (show (0 : Fin S50000x1024.rank) ∈ dot_S50000x1024_S1024x256_S50000x256_1_0_0_1_n_n.lhsNonContracting by decide)]
  rfl
/-- The left operand's column is the contraction position. -/
theorem lhs₁_col (i : S50000x256.Idx) (k : dot_S50000x1024_S1024x256_S50000x256_1_0_0_1_n_n.contr.Idx) :
    (dot_S50000x1024_S1024x256_S50000x256_1_0_0_1_n_n.lhsIdx i k 1).val = (k ⟨0, by decide⟩).val :=
  dot_S50000x1024_S1024x256_S50000x256_1_0_0_1_n_n.lhsIdx_val_of_single rfl i k
/-- The right operand's row is the contraction position. -/
theorem rhs₁_row (i : S50000x256.Idx) (k : dot_S50000x1024_S1024x256_S50000x256_1_0_0_1_n_n.contr.Idx) :
    (dot_S50000x1024_S1024x256_S50000x256_1_0_0_1_n_n.rhsIdx i k 0).val = (k ⟨0, by decide⟩).val :=
  dot_S50000x1024_S1024x256_S50000x256_1_0_0_1_n_n.rhsIdx_val_of_single rfl i k
/-- The right operand's column is the output's column. -/
theorem rhs₁_col (i : S50000x256.Idx) (k : dot_S50000x1024_S1024x256_S50000x256_1_0_0_1_n_n.contr.Idx) :
    (dot_S50000x1024_S1024x256_S50000x256_1_0_0_1_n_n.rhsIdx i k 1).val = (i 1).val := by
  unfold DotDims.rhsIdx
  rw [dif_neg (show ¬(1 : Fin S1024x256.rank) ∈ dot_S50000x1024_S1024x256_S50000x256_1_0_0_1_n_n.rhsBatch by decide), dif_pos (show (1 : Fin S1024x256.rank) ∈ dot_S50000x1024_S1024x256_S50000x256_1_0_0_1_n_n.rhsNonContracting by decide)]
  rfl

/-- The whole-array product at `(r, q)`: `Σ_k x(r, k) · w(k, q)` over the 1024 contraction positions. -/
theorem dot₁_apply (x : (⟨S50000x1024, .f32⟩ : BufTy).Contents (Elt Ideal)) (w : (⟨S1024x256, .f32⟩ : BufTy).Contents (Elt Ideal))
    (r : Fin 50000) (q : Fin 256) :
    Host.dotGeneral (F := Ideal) (φ₁ := .f32) (φ₂ := .f32) dot_S50000x1024_S1024x256_S50000x256_1_0_0_1_n_n none x w (ix2 r q) = ∑ k : Fin 1024, x (ix2 r k) * w (ix2 k q) := by
  simp only [Host.dotGeneral]
  rw [Ideal.dotGeneral_apply, ← Equiv.sum_comp (contrEquiv1 dot_S50000x1024_S1024x256_S50000x256_1_0_0_1_n_n 1024 rfl rfl).symm]
  refine Finset.sum_congr rfl fun k _ => ?_
  have hk := contrEquiv1_symm_val dot_S50000x1024_S1024x256_S50000x256_1_0_0_1_n_n 1024 rfl rfl k
  have el : dot_S50000x1024_S1024x256_S50000x256_1_0_0_1_n_n.lhsIdx (ix2 r q) ((contrEquiv1 dot_S50000x1024_S1024x256_S50000x256_1_0_0_1_n_n 1024 rfl rfl).symm k) = ix2 r k := funext fun a => Fin.ext (by
    match a with
    | ⟨0, _⟩ => exact lhs₁_row _ _
    | ⟨1, _⟩ => exact (lhs₁_col _ _).trans hk)
  have er : dot_S50000x1024_S1024x256_S50000x256_1_0_0_1_n_n.rhsIdx (ix2 r q) ((contrEquiv1 dot_S50000x1024_S1024x256_S50000x256_1_0_0_1_n_n 1024 rfl rfl).symm k) = ix2 k q := funext fun a => Fin.ext (by
    match a with
    | ⟨0, _⟩ => exact (rhs₁_row _ _).trans hk
    | ⟨1, _⟩ => exact rhs₁_col _ _)
  rw [el, er]

/-- The linear layer at `(r, q)`: row `r` of `x` against column `q` of `w`, plus the bias at `q`. -/
theorem dense₁_apply (x : (⟨S50000x1024, .f32⟩ : BufTy).Contents (Elt Ideal)) (w : (⟨S1024x256, .f32⟩ : BufTy).Contents (Elt Ideal))
    (b : (⟨S256, .f32⟩ : BufTy).Contents (Elt Ideal)) (r : Fin 50000) (q : Fin 256) :
    dense₁ (F := Ideal) x w b (ix2 r q) = (∑ k : Fin 1024, x (ix2 r k) * w (ix2 k q)) + b (ix1 q) := by
  unfold dense₁
  exact (addf_apply _ _ _).trans (congrArg₂ (· + ·) (dot₁_apply x w r q) (biasRows256_apply b r q))

/-! ## The 50000×256 by 256×256 product -/

/-- The left operand's row is the output's row. -/
theorem lhs₂_row (i : S50000x256.Idx) (k : dot_S50000x256_S256x256_S50000x256_1_0_0_1_n_n.contr.Idx) :
    (dot_S50000x256_S256x256_S50000x256_1_0_0_1_n_n.lhsIdx i k 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
/-- The left operand's column is the contraction position. -/
theorem lhs₂_col (i : S50000x256.Idx) (k : dot_S50000x256_S256x256_S50000x256_1_0_0_1_n_n.contr.Idx) :
    (dot_S50000x256_S256x256_S50000x256_1_0_0_1_n_n.lhsIdx i k 1).val = (k ⟨0, by decide⟩).val :=
  dot_S50000x256_S256x256_S50000x256_1_0_0_1_n_n.lhsIdx_val_of_single rfl i k
/-- The right operand's row is the contraction position. -/
theorem rhs₂_row (i : S50000x256.Idx) (k : dot_S50000x256_S256x256_S50000x256_1_0_0_1_n_n.contr.Idx) :
    (dot_S50000x256_S256x256_S50000x256_1_0_0_1_n_n.rhsIdx i k 0).val = (k ⟨0, by decide⟩).val :=
  dot_S50000x256_S256x256_S50000x256_1_0_0_1_n_n.rhsIdx_val_of_single rfl i k
/-- The right operand's column is the output's column. -/
theorem rhs₂_col (i : S50000x256.Idx) (k : dot_S50000x256_S256x256_S50000x256_1_0_0_1_n_n.contr.Idx) :
    (dot_S50000x256_S256x256_S50000x256_1_0_0_1_n_n.rhsIdx i k 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

/-- The whole-array product at `(r, q)`: `Σ_k x(r, k) · w(k, q)` over the 256 contraction positions. -/
theorem dot₂_apply (x : (⟨S50000x256, .f32⟩ : BufTy).Contents (Elt Ideal)) (w : (⟨S256x256, .f32⟩ : BufTy).Contents (Elt Ideal))
    (r : Fin 50000) (q : Fin 256) :
    Host.dotGeneral (F := Ideal) (φ₁ := .f32) (φ₂ := .f32) dot_S50000x256_S256x256_S50000x256_1_0_0_1_n_n none x w (ix2 r q) = ∑ k : Fin 256, x (ix2 r k) * w (ix2 k q) := by
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have el : dot_S50000x256_S256x256_S50000x256_1_0_0_1_n_n.lhsIdx (ix2 r q) ((contrEquiv1 dot_S50000x256_S256x256_S50000x256_1_0_0_1_n_n 256 rfl rfl).symm k) = ix2 r k := funext fun a => Fin.ext (by
    match a with
    | ⟨0, _⟩ => exact lhs₂_row _ _
    | ⟨1, _⟩ => exact (lhs₂_col _ _).trans hk)
  have er : dot_S50000x256_S256x256_S50000x256_1_0_0_1_n_n.rhsIdx (ix2 r q) ((contrEquiv1 dot_S50000x256_S256x256_S50000x256_1_0_0_1_n_n 256 rfl rfl).symm k) = ix2 k q := funext fun a => Fin.ext (by
    match a with
    | ⟨0, _⟩ => exact (rhs₂_row _ _).trans hk
    | ⟨1, _⟩ => exact rhs₂_col _ _)
  rw [el, er]

/-- The linear layer at `(r, q)`: row `r` of `x` against column `q` of `w`, plus the bias at `q`. -/
theorem dense₂_apply (x : (⟨S50000x256, .f32⟩ : BufTy).Contents (Elt Ideal)) (w : (⟨S256x256, .f32⟩ : BufTy).Contents (Elt Ideal))
    (b : (⟨S256, .f32⟩ : BufTy).Contents (Elt Ideal)) (r : Fin 50000) (q : Fin 256) :
    dense₂ (F := Ideal) x w b (ix2 r q) = (∑ k : Fin 256, x (ix2 r k) * w (ix2 k q)) + b (ix1 q) := by
  unfold dense₂
  exact (addf_apply _ _ _).trans (congrArg₂ (· + ·) (dot₂_apply x w r q) (biasRows256_apply b r q))

/-! ## The 50000×256 by 256×512 product -/

/-- The left operand's row is the output's row. -/
theorem lhs₃_row (i : S50000x512.Idx) (k : dot_S50000x256_S256x512_S50000x512_1_0_0_1_n_n.contr.Idx) :
    (dot_S50000x256_S256x512_S50000x512_1_0_0_1_n_n.lhsIdx i k 0).val = (i 0).val := by
  unfold DotDims.lhsIdx
  rw [dif_neg (show ¬(0 : Fin S50000x256.rank) ∈ dot_S50000x256_S256x512_S50000x512_1_0_0_1_n_n.lhsBatch by decide), dif_pos (show (0 : Fin S50000x256.rank) ∈ dot_S50000x256_S256x512_S50000x512_1_0_0_1_n_n.lhsNonContracting by decide)]
  rfl
/-- The left operand's column is the contraction position. -/
theorem lhs₃_col (i : S50000x512.Idx) (k : dot_S50000x256_S256x512_S50000x512_1_0_0_1_n_n.contr.Idx) :
    (dot_S50000x256_S256x512_S50000x512_1_0_0_1_n_n.lhsIdx i k 1).val = (k ⟨0, by decide⟩).val :=
  dot_S50000x256_S256x512_S50000x512_1_0_0_1_n_n.lhsIdx_val_of_single rfl i k
/-- The right operand's row is the contraction position. -/
theorem rhs₃_row (i : S50000x512.Idx) (k : dot_S50000x256_S256x512_S50000x512_1_0_0_1_n_n.contr.Idx) :
    (dot_S50000x256_S256x512_S50000x512_1_0_0_1_n_n.rhsIdx i k 0).val = (k ⟨0, by decide⟩).val :=
  dot_S50000x256_S256x512_S50000x512_1_0_0_1_n_n.rhsIdx_val_of_single rfl i k
/-- The right operand's column is the output's column. -/
theorem rhs₃_col (i : S50000x512.Idx) (k : dot_S50000x256_S256x512_S50000x512_1_0_0_1_n_n.contr.Idx) :
    (dot_S50000x256_S256x512_S50000x512_1_0_0_1_n_n.rhsIdx i k 1).val = (i 1).val := by
  unfold DotDims.rhsIdx
  rw [dif_neg (show ¬(1 : Fin S256x512.rank) ∈ dot_S50000x256_S256x512_S50000x512_1_0_0_1_n_n.rhsBatch by decide), dif_pos (show (1 : Fin S256x512.rank) ∈ dot_S50000x256_S256x512_S50000x512_1_0_0_1_n_n.rhsNonContracting by decide)]
  rfl

/-- The whole-array product at `(r, q)`: `Σ_k x(r, k) · w(k, q)` over the 256 contraction positions. -/
theorem dot₃_apply (x : (⟨S50000x256, .f32⟩ : BufTy).Contents (Elt Ideal)) (w : (⟨S256x512, .f32⟩ : BufTy).Contents (Elt Ideal))
    (r : Fin 50000) (q : Fin 512) :
    Host.dotGeneral (F := Ideal) (φ₁ := .f32) (φ₂ := .f32) dot_S50000x256_S256x512_S50000x512_1_0_0_1_n_n none x w (ix2 r q) = ∑ k : Fin 256, x (ix2 r k) * w (ix2 k q) := by
  simp only [Host.dotGeneral]
  rw [Ideal.dotGeneral_apply, ← Equiv.sum_comp (contrEquiv1 dot_S50000x256_S256x512_S50000x512_1_0_0_1_n_n 256 rfl rfl).symm]
  refine Finset.sum_congr rfl fun k _ => ?_
  have hk := contrEquiv1_symm_val dot_S50000x256_S256x512_S50000x512_1_0_0_1_n_n 256 rfl rfl k
  have el : dot_S50000x256_S256x512_S50000x512_1_0_0_1_n_n.lhsIdx (ix2 r q) ((contrEquiv1 dot_S50000x256_S256x512_S50000x512_1_0_0_1_n_n 256 rfl rfl).symm k) = ix2 r k := funext fun a => Fin.ext (by
    match a with
    | ⟨0, _⟩ => exact lhs₃_row _ _
    | ⟨1, _⟩ => exact (lhs₃_col _ _).trans hk)
  have er : dot_S50000x256_S256x512_S50000x512_1_0_0_1_n_n.rhsIdx (ix2 r q) ((contrEquiv1 dot_S50000x256_S256x512_S50000x512_1_0_0_1_n_n 256 rfl rfl).symm k) = ix2 k q := funext fun a => Fin.ext (by
    match a with
    | ⟨0, _⟩ => exact (rhs₃_row _ _).trans hk
    | ⟨1, _⟩ => exact rhs₃_col _ _)
  rw [el, er]

/-- The linear layer at `(r, q)`: row `r` of `x` against column `q` of `w`, plus the bias at `q`. -/
theorem dense₃_apply (x : (⟨S50000x256, .f32⟩ : BufTy).Contents (Elt Ideal)) (w : (⟨S256x512, .f32⟩ : BufTy).Contents (Elt Ideal))
    (b : (⟨S512, .f32⟩ : BufTy).Contents (Elt Ideal)) (r : Fin 50000) (q : Fin 512) :
    dense₃ (F := Ideal) x w b (ix2 r q) = (∑ k : Fin 256, x (ix2 r k) * w (ix2 k q)) + b (ix1 q) := by
  unfold dense₃
  exact (addf_apply _ _ _).trans (congrArg₂ (· + ·) (dot₃_apply x w r q) (biasRows512_apply b r q))

end Cert.Spec

end
-- ==== Proof.Dense0.lean ====
/-
  The matrix-product region 0 of the kernel, as one whole-array equation on the extended reals: after the region its output
  array is the reference's linear layer `x · w + b` of the arrays the region found. The body's stored value at `(p, q)` is
  `Σ_k x(p, k) · w(k, q) + b(q)` of its blocks; the blocks are rows `1000·t …` of the left operand and of the output and the whole of
  the weights and the bias; the reference's layer at `(1000·t + p, q)` is the same sum.
-/
import proofs.«165484_j41601053229622_1_alg».proof.Proof.Gen.KernelIdeal.Frame
import proofs.«165484_j41601053229622_1_alg».proof.Proof.DotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense0

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The block product's operand indices

The dimension record contracts the left operand's columns against the right operand's rows: at output index `(p, q)` and
contraction position `k` the left operand is read at `(p, k)` and the right at `(k, q)`. -/

/-- The left operand's row is the output's row. -/
theorem lhs0_row (i : S1000x256.Idx) (k : dot_S1000x1024_S1024x256_S1000x256_1_0_0_1_n_n.contr.Idx) :
    (dot_S1000x1024_S1024x256_S1000x256_1_0_0_1_n_n.lhsIdx i k 0).val = (i 0).val := by
  unfold DotDims.lhsIdx
  rw [dif_neg (show ¬(0 : Fin S1000x1024.rank) ∈ dot_S1000x1024_S1024x256_S1000x256_1_0_0_1_n_n.lhsBatch by decide), dif_pos (show (0 : Fin S1000x1024.rank) ∈ dot_S1000x1024_S1024x256_S1000x256_1_0_0_1_n_n.lhsNonContracting by decide)]
  rfl
/-- The left operand's column is the contraction position. -/
theorem lhs0_col (i : S1000x256.Idx) (k : dot_S1000x1024_S1024x256_S1000x256_1_0_0_1_n_n.contr.Idx) :
    (dot_S1000x1024_S1024x256_S1000x256_1_0_0_1_n_n.lhsIdx i k 1).val = (k ⟨0, by decide⟩).val :=
  dot_S1000x1024_S1024x256_S1000x256_1_0_0_1_n_n.lhsIdx_val_of_single rfl i k
/-- The right operand's row is the contraction position. -/
theorem rhs0_row (i : S1000x256.Idx) (k : dot_S1000x1024_S1024x256_S1000x256_1_0_0_1_n_n.contr.Idx) :
    (dot_S1000x1024_S1024x256_S1000x256_1_0_0_1_n_n.rhsIdx i k 0).val = (k ⟨0, by decide⟩).val :=
  dot_S1000x1024_S1024x256_S1000x256_1_0_0_1_n_n.rhsIdx_val_of_single rfl i k
/-- The right operand's column is the output's column. -/
theorem rhs0_col (i : S1000x256.Idx) (k : dot_S1000x1024_S1024x256_S1000x256_1_0_0_1_n_n.contr.Idx) :
    (dot_S1000x1024_S1024x256_S1000x256_1_0_0_1_n_n.rhsIdx i k 1).val = (i 1).val := by
  unfold DotDims.rhsIdx
  rw [dif_neg (show ¬(1 : Fin S1024x256.rank) ∈ dot_S1000x1024_S1024x256_S1000x256_1_0_0_1_n_n.rhsBatch by decide), dif_pos (show (1 : Fin S1024x256.rank) ∈ dot_S1000x1024_S1024x256_S1000x256_1_0_0_1_n_n.rhsNonContracting by decide)]
  rfl

/-- The block product into the zero accumulator, at `(p, q)`: `Σ_k x(p, k) · w(k, q)` over the 1024 contraction positions. -/
theorem matmul0_apply {φ₁ φ₂ : FTy} (x : FVec Ideal S1000x1024 φ₁) (w : FVec Ideal S1024x256 φ₂) (p : Fin 1000) (q : Fin 256) :
    matmul (F := Ideal) dot_S1000x1024_S1024x256_S1000x256_1_0_0_1_n_n none x w (constant (F := Ideal) S1000x256 .f32 0x00000000#32) (ix2 p q)
      = ∑ k : Fin 1024, x (ix2 p k) * w (ix2 k q) := by
  simp only [matmul]
  rw [Ideal.matmul_constant_zero_apply, ← Equiv.sum_comp (contrEquiv1 dot_S1000x1024_S1024x256_S1000x256_1_0_0_1_n_n 1024 rfl rfl).symm]
  refine Finset.sum_congr rfl fun k _ => ?_
  have hk := contrEquiv1_symm_val dot_S1000x1024_S1024x256_S1000x256_1_0_0_1_n_n 1024 rfl rfl k
  have el : dot_S1000x1024_S1024x256_S1000x256_1_0_0_1_n_n.lhsIdx (ix2 p q) ((contrEquiv1 dot_S1000x1024_S1024x256_S1000x256_1_0_0_1_n_n 1024 rfl rfl).symm k) = ix2 p k := funext fun a => Fin.ext (by
    match a with
    | ⟨0, _⟩ => exact lhs0_row _ _
    | ⟨1, _⟩ => exact (lhs0_col _ _).trans hk)
  have er : dot_S1000x1024_S1024x256_S1000x256_1_0_0_1_n_n.rhsIdx (ix2 p q) ((contrEquiv1 dot_S1000x1024_S1024x256_S1000x256_1_0_0_1_n_n 1024 rfl rfl).symm k) = ix2 k q := funext fun a => Fin.ext (by
    match a with
    | ⟨0, _⟩ => exact (rhs0_row _ _).trans hk
    | ⟨1, _⟩ => exact rhs0_col _ _)
  rw [el, er]

/-- The bias vector viewed as one row and repeated down the block's rows, at `(p, q)`: the bias at `q`. -/
theorem bias0_apply (b : Vec Ideal S256 .f32) (p : Fin 1000) (q : Fin 256) :
    broadcastTo S1000x256 (shapeCast S1x256 (shapeCast S256 b shapeCasts_S256_S256) shapeCasts_S256_S1x256) broadcasts_S1x256_S1000x256 (ix2 p q) = b (ix1 q) := by
  rw [shapeCast_self]
  exact (broadcastTo_1b_ab_apply _ broadcasts_S1x256_S1000x256 p q).trans (shapeCast_a_1a_apply b shapeCasts_S256_S1x256 0 q)

/-- What the body stores, at `(p, q)`: the products of row `p` of the row block with column `q` of the weights, summed,
    plus the bias at `q` — the narrowing of the two operands before the product changes nothing on the extended reals. -/
theorem pay0_apply (x : Vec Ideal S1000x1024 .f32) (w : Vec Ideal S1024x256 .f32) (b : Vec Ideal S256 .f32) (p : Fin 1000) (q : Fin 256) :
    k0_pay1 (F := Ideal) x w b (ix2 p q) = (∑ k : Fin 1024, x (ix2 p k) * w (ix2 k q)) + b (ix1 q) := by
  unfold k0_pay1
  refine (addf_apply _ _ _).trans ?_
  refine congrArg₂ (· + ·) ?_ (bias0_apply b p q)
  refine (matmul0_apply _ _ p q).trans ?_
  rw [shapeCast_self]
  rfl

/-! ## Region 0: the row tiling

The grid has 50 points; point `t` takes rows `1000·t … 1000·t + 999` of the left operand and of the output, all their
columns, and the whole weight matrix and bias vector. -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the left operand's and the output's block row is the grid point, every other
    block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A grid point is below 50. -/
theorem point0_lt (t : Fin cfg0.N) : t.val < 50 := Nat.lt_of_lt_of_eq t.isLt N_0

/-- Row `p` of point `t`'s block is a row of the array. -/
theorem row0_lt (t : Fin cfg0.N) (p : Fin 1000) : t.val * 1000 + p.val < 50000 := by
  have ht := point0_lt t
  have hp := p.isLt
  omega

/-- The left operand's block at point `t`, at `(p, k)`: the array at row `1000·t + p`, column `k`. -/
theorem x0_apply (c : Dev nD) (t : Fin cfg0.N) (p : Fin 1000) (k : Fin 1024) :
    (iblk0 V c 0 t : Vec Ideal S1000x1024 .f32) (ix2 p k)
      = (V c main_v4 : Vec Ideal S50000x1024 .f32) (ix2 ⟨t.val * 1000 + p.val, row0_lt t p⟩ k) := by
  obtain ⟨e0, e1, -⟩ := idx_facts0 t
  unfold iblk0
  rw [View.read_apply]
  refine congrArg (V c main_v4 : Vec Ideal S50000x1024 .f32) (funext fun a => Fin.ext ?_)
  match a with
  | ⟨0, _⟩ => show win0_0.index t (0 : Fin 2) * 1000 + 1 * p.val = t.val * 1000 + p.val; rw [e0]; omega
  | ⟨1, _⟩ => show win0_0.index t (1 : Fin 2) * 1024 + 1 * k.val = k.val; rw [e1]; omega

/-- The weights' block at any point is the whole matrix. -/
theorem w0_apply (c : Dev nD) (t : Fin cfg0.N) (k : Fin 1024) (q : Fin 256) :
    (iblk0 V c 1 t : Vec Ideal S1024x256 .f32) (ix2 k q) = (V c main_arg3 : Vec Ideal S1024x256 .f32) (ix2 k q) := by
  obtain ⟨-, -, e2, e3, -⟩ := idx_facts0 t
  unfold iblk0
  rw [View.read_apply]
  refine congrArg (V c main_arg3 : Vec Ideal S1024x256 .f32) (funext fun a => Fin.ext ?_)
  match a with
  | ⟨0, _⟩ => show win0_1.index t (0 : Fin 2) * 1024 + 1 * k.val = k.val; rw [e2]; omega
  | ⟨1, _⟩ => show win0_1.index t (1 : Fin 2) * 256 + 1 * q.val = q.val; rw [e3]; omega

/-- The bias's block at any point is the whole vector. -/
theorem b0_apply (c : Dev nD) (t : Fin cfg0.N) (q : Fin 256) :
    (iblk0 V c 2 t : Vec Ideal S256 .f32) (ix1 q) = (V c main_v34 : Vec Ideal S256 .f32) (ix1 q) := by
  obtain ⟨-, -, -, -, e4, -⟩ := idx_facts0 t
  unfold iblk0
  rw [View.read_apply]
  refine congrArg (V c main_v34 : Vec Ideal S256 .f32) (funext fun a => Fin.ext ?_)
  match a with
  | ⟨0, _⟩ => show win0_2.index t (0 : Fin 1) * 256 + 1 * q.val = q.val; rw [e4]; omega

/-- The output's block at point `t` sits at rows `1000·t …`: its index `(p, q)` is the array's `(1000·t + p, q)`. -/
theorem out0_emb (t : Fin cfg0.N) (p : Fin 1000) (q : Fin 256) :
    ((cfg0.win 3).blk t).view.emb (ix2 p q) = (ix2 ⟨t.val * 1000 + p.val, row0_lt t p⟩ q : S50000x256.Idx) := by
  obtain ⟨-, -, -, -, -, e5, e6⟩ := idx_facts0 t
  refine funext fun a => Fin.ext ?_
  match a with
  | ⟨0, _⟩ => show win0_3.index t (0 : Fin 2) * 1000 + 1 * p.val = t.val * 1000 + p.val; rw [e5]; omega
  | ⟨1, _⟩ => show win0_3.index t (1 : Fin 2) * 256 + 1 * q.val = q.val; rw [e6]; omega

/-- What point `t` writes back is its block of the linear layer of the whole arrays: both sides at `(p, q)` are
    `Σ_k x(1000·t + p, k) · w(k, q) + b(q)`. -/
theorem flushed0_eq (c : Dev nD) (t : Fin cfg0.N) :
    (dat0 (F := Ideal) V c).flushed 3 t
      = ((cfg0.win 3).blk t).view.read (Elt Ideal) (Cert.Spec.dense₁ (F := Ideal) (V c main_v4) (V c main_arg3) (V c main_v34)) := by
  show (cfg0.win 3).cut (grid0.coords t) ((dat0 (F := Ideal) V c).after 3 t) = _
  rw [after0_3]
  unfold out0_3
  rw [View.canon_unit_zero hz]
  simp only [View.ld_unit_zero (S := S1000x1024) hz, View.ld_unit_zero (S := S1024x256) hz, View.ld_unit_zero (S := S256) hz1]
  funext j
  obtain ⟨p, q, rfl⟩ : ∃ (p : Fin 1000) (q : Fin 256), j = ix2 p q := ⟨j 0, j 1, eq_ix2 (n0 := 1000) (n1 := 256) j⟩
  rw [View.read_apply, out0_emb t p q]
  show k0_pay1 (F := Ideal) (iblk0 V c 0 t) (iblk0 V c 1 t) (iblk0 V c 2 t) (ix2 p q) = _
  refine (pay0_apply _ _ _ p q).trans (Eq.trans ?_ (Cert.Spec.dense₁_apply _ _ _ _ q).symm)
  exact congrArg₂ (· + ·)
    (Finset.sum_congr rfl fun k _ => congrArg₂ (· * ·) (x0_apply V c t p k) (w0_apply V c t k q))
    (b0_apply V c t q)

/-- An index of the array is in point `t`'s block iff each coordinate is in the block's range on its axis. -/
theorem mem_blk0 (t : Fin cfg0.N) (i : S50000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v35).slice (win0_3.rect t)).set ↔ _
  rw [View.set_slice_whole, Rect.mem_set_unit]
  exact Iff.rfl

/-- Every row of the array lies in the block of the point `row / 1000`, with all its columns. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : grid0.N = 50 := N_0
  let t : Fin cfg0.N := ⟨(i 0).val / 1000, by show (i 0).val / 1000 < grid0.N; rw [hN]; omega⟩
  obtain ⟨-, -, -, -, -, e5, e6⟩ := idx_facts0 t
  have ht : t.val = (i 0).val / 1000 := rfl
  refine ⟨t, flush0_3 t, ?_⟩
  rw [mem_blk0]
  intro a
  match a with
  | ⟨0, _⟩ => show win0_3.index t (0 : Fin 2) * 1000 ≤ (i 0).val ∧ (i 0).val < win0_3.index t (0 : Fin 2) * 1000 + 1000; rw [e5, ht]; omega
  | ⟨1, _⟩ => show win0_3.index t (1 : Fin 2) * 256 ≤ (i 1).val ∧ (i 1).val < win0_3.index t (1 : Fin 2) * 256 + 256; rw [e6]; omega

/-- After the region the output array is the linear layer of the arrays the region found: every point writes its block of
    it, and the blocks cover the array. -/
theorem final0 (c : Dev nD) :
    (dat0 (F := Ideal) V c).arrAt 3 cfg0.N = Cert.Spec.dense₁ (F := Ideal) (V c main_v4) (V c main_arg3) (V c main_v34) :=
  (dat0 (F := Ideal) V c).arrAt_eq_of_cover 3 (Cert.Spec.dense₁ (F := Ideal) (V c main_v4) (V c main_arg3) (V c main_v34))
    (fun t _ => flushed0_eq V c t) cover0

end Cert.KernelIdeal.Dense0

end
-- ==== Proof.Dense2.lean ====
/-
  The matrix-product region 2 of the kernel, as one whole-array equation on the extended reals: after the region its output
  array is the reference's linear layer `x · w + b` of the arrays the region found. The body's stored value at `(p, q)` is
  `Σ_k x(p, k) · w(k, q) + b(q)` of its blocks; the blocks are rows `2000·t …` of the left operand and of the output and the whole of
  the weights and the bias; the reference's layer at `(2000·t + p, q)` is the same sum.
-/
import proofs.«165484_j41601053229622_1_alg».proof.Proof.Gen.KernelIdeal.Frame
import proofs.«165484_j41601053229622_1_alg».proof.Proof.DotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense2

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The block product's operand indices

The dimension record contracts the left operand's columns against the right operand's rows: at output index `(p, q)` and
contraction position `k` the left operand is read at `(p, k)` and the right at `(k, q)`. -/

/-- The left operand's row is the output's row. -/
theorem lhs2_row (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column is the contraction position. -/
theorem lhs2_col (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k
/-- The right operand's row is the contraction position. -/
theorem rhs2_row (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k
/-- The right operand's column is the output's column. -/
theorem rhs2_col (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block product into the zero accumulator, at `(p, q)`: `Σ_k x(p, k) · w(k, q)` over the 256 contraction positions. -/
theorem matmul2_apply {φ₁ φ₂ : FTy} (x : FVec Ideal S2000x256 φ₁) (w : FVec Ideal S256x256 φ₂) (p : Fin 2000) (q : Fin 256) :
    matmul (F := Ideal) dot_S2000x256_S256x256_S2000x256_1_0_0_1_n_n none x w (constant (F := Ideal) S2000x256 .f32 0x00000000#32) (ix2 p q)
      = ∑ k : Fin 256, x (ix2 p k) * w (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs2_row _ _
    | ⟨1, _⟩ => exact (lhs2_col _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs2_row _ _).trans hk
    | ⟨1, _⟩ => exact rhs2_col _ _)
  rw [el, er]

/-- The bias vector viewed as one row and repeated down the block's rows, at `(p, q)`: the bias at `q`. -/
theorem bias2_apply (b : Vec Ideal S256 .f32) (p : Fin 2000) (q : Fin 256) :
    broadcastTo S2000x256 (shapeCast S1x256 (shapeCast S256 b shapeCasts_S256_S256) shapeCasts_S256_S1x256) broadcasts_S1x256_S2000x256 (ix2 p q) = b (ix1 q) := by
  rw [shapeCast_self]
  exact (broadcastTo_1b_ab_apply _ broadcasts_S1x256_S2000x256 p q).trans (shapeCast_a_1a_apply b shapeCasts_S256_S1x256 0 q)

/-- What the body stores, at `(p, q)`: the products of row `p` of the row block with column `q` of the weights, summed,
    plus the bias at `q` — the narrowing of the two operands before the product changes nothing on the extended reals. -/
theorem pay2_apply (x : Vec Ideal S2000x256 .f32) (w : Vec Ideal S256x256 .f32) (b : Vec Ideal S256 .f32) (p : Fin 2000) (q : Fin 256) :
    k2_pay1 (F := Ideal) x w b (ix2 p q) = (∑ k : Fin 256, x (ix2 p k) * w (ix2 k q)) + b (ix1 q) := by
  unfold k2_pay1
  refine (addf_apply _ _ _).trans ?_
  refine congrArg₂ (· + ·) ?_ (bias2_apply b p q)
  refine (matmul2_apply _ _ p q).trans ?_
  rw [shapeCast_self]
  rfl

/-! ## Region 2: the row tiling

The grid has 25 points; point `t` takes rows `2000·t … 2000·t + 1999` of the left operand and of the output, all their
columns, and the whole weight matrix and bias vector. -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the left operand's and the output's block row is the grid point, every other
    block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- A grid point is below 25. -/
theorem point2_lt (t : Fin cfg2.N) : t.val < 25 := Nat.lt_of_lt_of_eq t.isLt N_2

/-- Row `p` of point `t`'s block is a row of the array. -/
theorem row2_lt (t : Fin cfg2.N) (p : Fin 2000) : t.val * 2000 + p.val < 50000 := by
  have ht := point2_lt t
  have hp := p.isLt
  omega

/-- The left operand's block at point `t`, at `(p, k)`: the array at row `2000·t + p`, column `k`. -/
theorem x2_apply (c : Dev nD) (t : Fin cfg2.N) (p : Fin 2000) (k : Fin 256) :
    (iblk2 V c 0 t : Vec Ideal S2000x256 .f32) (ix2 p k)
      = (V c main_v49 : Vec Ideal S50000x256 .f32) (ix2 ⟨t.val * 2000 + p.val, row2_lt t p⟩ k) := by
  obtain ⟨e0, e1, -⟩ := idx_facts2 t
  unfold iblk2
  rw [View.read_apply]
  refine congrArg (V c main_v49 : Vec Ideal S50000x256 .f32) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 256 + 1 * k.val = k.val; rw [e1]; omega

/-- The weights' block at any point is the whole matrix. -/
theorem w2_apply (c : Dev nD) (t : Fin cfg2.N) (k : Fin 256) (q : Fin 256) :
    (iblk2 V c 1 t : Vec Ideal S256x256 .f32) (ix2 k q) = (V c main_arg5 : Vec Ideal S256x256 .f32) (ix2 k q) := by
  obtain ⟨-, -, e2, e3, -⟩ := idx_facts2 t
  unfold iblk2
  rw [View.read_apply]
  refine congrArg (V c main_arg5 : Vec Ideal S256x256 .f32) (funext fun a => Fin.ext ?_)
  match a with
  | ⟨0, _⟩ => show win2_1.index t (0 : Fin 2) * 256 + 1 * k.val = k.val; rw [e2]; omega
  | ⟨1, _⟩ => show win2_1.index t (1 : Fin 2) * 256 + 1 * q.val = q.val; rw [e3]; omega

/-- The bias's block at any point is the whole vector. -/
theorem b2_apply (c : Dev nD) (t : Fin cfg2.N) (q : Fin 256) :
    (iblk2 V c 2 t : Vec Ideal S256 .f32) (ix1 q) = (V c main_v50 : Vec Ideal S256 .f32) (ix1 q) := by
  obtain ⟨-, -, -, -, e4, -⟩ := idx_facts2 t
  unfold iblk2
  rw [View.read_apply]
  refine congrArg (V c main_v50 : Vec Ideal S256 .f32) (funext fun a => Fin.ext ?_)
  match a with
  | ⟨0, _⟩ => show win2_2.index t (0 : Fin 1) * 256 + 1 * q.val = q.val; rw [e4]; omega

/-- The output's block at point `t` sits at rows `2000·t …`: its index `(p, q)` is the array's `(2000·t + p, q)`. -/
theorem out2_emb (t : Fin cfg2.N) (p : Fin 2000) (q : Fin 256) :
    ((cfg2.win 3).blk t).view.emb (ix2 p q) = (ix2 ⟨t.val * 2000 + p.val, row2_lt t p⟩ q : S50000x256.Idx) := by
  obtain ⟨-, -, -, -, -, e5, e6⟩ := idx_facts2 t
  refine funext fun a => Fin.ext ?_
  match a with
  | ⟨0, _⟩ => show win2_3.index t (0 : Fin 2) * 2000 + 1 * p.val = t.val * 2000 + p.val; rw [e5]; omega
  | ⟨1, _⟩ => show win2_3.index t (1 : Fin 2) * 256 + 1 * q.val = q.val; rw [e6]; omega

/-- What point `t` writes back is its block of the linear layer of the whole arrays: both sides at `(p, q)` are
    `Σ_k x(2000·t + p, k) · w(k, q) + b(q)`. -/
theorem flushed2_eq (c : Dev nD) (t : Fin cfg2.N) :
    (dat2 (F := Ideal) V c).flushed 3 t
      = ((cfg2.win 3).blk t).view.read (Elt Ideal) (Cert.Spec.dense₂ (F := Ideal) (V c main_v49) (V c main_arg5) (V c main_v50)) := by
  show (cfg2.win 3).cut (grid2.coords t) ((dat2 (F := Ideal) V c).after 3 t) = _
  rw [after2_3]
  unfold out2_3
  rw [View.canon_unit_zero hz]
  simp only [View.ld_unit_zero (S := S2000x256) hz, View.ld_unit_zero (S := S256x256) hz, View.ld_unit_zero (S := S256) hz1]
  funext j
  obtain ⟨p, q, rfl⟩ : ∃ (p : Fin 2000) (q : Fin 256), j = ix2 p q := ⟨j 0, j 1, eq_ix2 (n0 := 2000) (n1 := 256) j⟩
  rw [View.read_apply, out2_emb t p q]
  show k2_pay1 (F := Ideal) (iblk2 V c 0 t) (iblk2 V c 1 t) (iblk2 V c 2 t) (ix2 p q) = _
  refine (pay2_apply _ _ _ p q).trans (Eq.trans ?_ (Cert.Spec.dense₂_apply _ _ _ _ q).symm)
  exact congrArg₂ (· + ·)
    (Finset.sum_congr rfl fun k _ => congrArg₂ (· * ·) (x2_apply V c t p k) (w2_apply V c t k q))
    (b2_apply V c t q)

/-- An index of the array is in point `t`'s block iff each coordinate is in the block's range on its axis. -/
theorem mem_blk2 (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v51).slice (win2_3.rect t)).set ↔ _
  rw [View.set_slice_whole, Rect.mem_set_unit]
  exact Iff.rfl

/-- Every row of the array lies in the block of the point `row / 2000`, with all its columns. -/
theorem cover2 (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have hN : grid2.N = 25 := N_2
  let t : Fin cfg2.N := ⟨(i 0).val / 2000, by show (i 0).val / 2000 < grid2.N; rw [hN]; omega⟩
  obtain ⟨-, -, -, -, -, e5, e6⟩ := idx_facts2 t
  have ht : t.val = (i 0).val / 2000 := rfl
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; rw [e5, ht]; omega
  | ⟨1, _⟩ => show win2_3.index t (1 : Fin 2) * 256 ≤ (i 1).val ∧ (i 1).val < win2_3.index t (1 : Fin 2) * 256 + 256; rw [e6]; omega

/-- After the region the output array is the linear layer of the arrays the region found: every point writes its block of
    it, and the blocks cover the array. -/
theorem final2 (c : Dev nD) :
    (dat2 (F := Ideal) V c).arrAt 3 cfg2.N = Cert.Spec.dense₂ (F := Ideal) (V c main_v49) (V c main_arg5) (V c main_v50) :=
  (dat2 (F := Ideal) V c).arrAt_eq_of_cover 3 (Cert.Spec.dense₂ (F := Ideal) (V c main_v49) (V c main_arg5) (V c main_v50))
    (fun t _ => flushed2_eq V c t) cover2

end Cert.KernelIdeal.Dense2

end
-- ==== Proof.Dense4.lean ====
/-
  The matrix-product region 4 of the kernel, as one whole-array equation on the extended reals: after the region its output
  array is the reference's linear layer `x · w + b` of the arrays the region found. The body's stored value at `(p, q)` is
  `Σ_k x(p, k) · w(k, q) + b(q)` of its blocks; the blocks are rows `2000·t …` of the left operand and of the output and the whole of
  the weights and the bias; the reference's layer at `(2000·t + p, q)` is the same sum.
-/
import proofs.«165484_j41601053229622_1_alg».proof.Proof.Gen.KernelIdeal.Frame
import proofs.«165484_j41601053229622_1_alg».proof.Proof.DotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense4

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The block product's operand indices

The dimension record contracts the left operand's columns against the right operand's rows: at output index `(p, q)` and
contraction position `k` the left operand is read at `(p, k)` and the right at `(k, q)`. -/

/-- The left operand's row is the output's row. -/
theorem lhs4_row (i : S2000x512.Idx) (k : dot_S2000x256_S256x512_S2000x512_1_0_0_1_n_n.contr.Idx) :
    (dot_S2000x256_S256x512_S2000x512_1_0_0_1_n_n.lhsIdx i k 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
/-- The left operand's column is the contraction position. -/
theorem lhs4_col (i : S2000x512.Idx) (k : dot_S2000x256_S256x512_S2000x512_1_0_0_1_n_n.contr.Idx) :
    (dot_S2000x256_S256x512_S2000x512_1_0_0_1_n_n.lhsIdx i k 1).val = (k ⟨0, by decide⟩).val :=
  dot_S2000x256_S256x512_S2000x512_1_0_0_1_n_n.lhsIdx_val_of_single rfl i k
/-- The right operand's row is the contraction position. -/
theorem rhs4_row (i : S2000x512.Idx) (k : dot_S2000x256_S256x512_S2000x512_1_0_0_1_n_n.contr.Idx) :
    (dot_S2000x256_S256x512_S2000x512_1_0_0_1_n_n.rhsIdx i k 0).val = (k ⟨0, by decide⟩).val :=
  dot_S2000x256_S256x512_S2000x512_1_0_0_1_n_n.rhsIdx_val_of_single rfl i k
/-- The right operand's column is the output's column. -/
theorem rhs4_col (i : S2000x512.Idx) (k : dot_S2000x256_S256x512_S2000x512_1_0_0_1_n_n.contr.Idx) :
    (dot_S2000x256_S256x512_S2000x512_1_0_0_1_n_n.rhsIdx i k 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- The block product into the zero accumulator, at `(p, q)`: `Σ_k x(p, k) · w(k, q)` over the 256 contraction positions. -/
theorem matmul4_apply {φ₁ φ₂ : FTy} (x : FVec Ideal S2000x256 φ₁) (w : FVec Ideal S256x512 φ₂) (p : Fin 2000) (q : Fin 512) :
    matmul (F := Ideal) dot_S2000x256_S256x512_S2000x512_1_0_0_1_n_n none x w (constant (F := Ideal) S2000x512 .f32 0x00000000#32) (ix2 p q)
      = ∑ k : Fin 256, x (ix2 p k) * w (ix2 k q) := by
  simp only [matmul]
  rw [Ideal.matmul_constant_zero_apply, ← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 p q) ((contrEquiv1 dot_S2000x256_S256x512_S2000x512_1_0_0_1_n_n 256 rfl rfl).symm k) = ix2 p k := funext fun a => Fin.ext (by
    match a with
    | ⟨0, _⟩ => exact lhs4_row _ _
    | ⟨1, _⟩ => exact (lhs4_col _ _).trans hk)
  have er : dot_S2000x256_S256x512_S2000x512_1_0_0_1_n_n.rhsIdx (ix2 p q) ((contrEquiv1 dot_S2000x256_S256x512_S2000x512_1_0_0_1_n_n 256 rfl rfl).symm k) = ix2 k q := funext fun a => Fin.ext (by
    match a with
    | ⟨0, _⟩ => exact (rhs4_row _ _).trans hk
    | ⟨1, _⟩ => exact rhs4_col _ _)
  rw [el, er]

/-- The bias vector viewed as one row and repeated down the block's rows, at `(p, q)`: the bias at `q`. -/
theorem bias4_apply (b : Vec Ideal S512 .f32) (p : Fin 2000) (q : Fin 512) :
    broadcastTo S2000x512 (shapeCast S1x512 b shapeCasts_S512_S1x512) broadcasts_S1x512_S2000x512 (ix2 p q) = b (ix1 q) := by
  exact (broadcastTo_1b_ab_apply _ broadcasts_S1x512_S2000x512 p q).trans (shapeCast_a_1a_apply b shapeCasts_S512_S1x512 0 q)

/-- What the body stores, at `(p, q)`: the products of row `p` of the row block with column `q` of the weights, summed,
    plus the bias at `q` — the narrowing of the two operands before the product changes nothing on the extended reals. -/
theorem pay4_apply (x : Vec Ideal S2000x256 .f32) (w : Vec Ideal S256x512 .f32) (b : Vec Ideal S512 .f32) (p : Fin 2000) (q : Fin 512) :
    k4_pay1 (F := Ideal) x w b (ix2 p q) = (∑ k : Fin 256, x (ix2 p k) * w (ix2 k q)) + b (ix1 q) := by
  unfold k4_pay1
  refine (addf_apply _ _ _).trans ?_
  refine congrArg₂ (· + ·) ?_ (bias4_apply b p q)
  refine (matmul4_apply _ _ p q).trans ?_
  rw [shapeCast_self]
  rfl

/-! ## Region 4: the row tiling

The grid has 25 points; point `t` takes rows `2000·t … 2000·t + 1999` of the left operand and of the output, all their
columns, and the whole weight matrix and bias vector. -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the left operand's and the output's block row is the grid point, every other
    block index is zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- A grid point is below 25. -/
theorem point4_lt (t : Fin cfg4.N) : t.val < 25 := Nat.lt_of_lt_of_eq t.isLt N_4

/-- Row `p` of point `t`'s block is a row of the array. -/
theorem row4_lt (t : Fin cfg4.N) (p : Fin 2000) : t.val * 2000 + p.val < 50000 := by
  have ht := point4_lt t
  have hp := p.isLt
  omega

/-- The left operand's block at point `t`, at `(p, k)`: the array at row `2000·t + p`, column `k`. -/
theorem x4_apply (c : Dev nD) (t : Fin cfg4.N) (p : Fin 2000) (k : Fin 256) :
    (iblk4 V c 0 t : Vec Ideal S2000x256 .f32) (ix2 p k)
      = (V c main_v65 : Vec Ideal S50000x256 .f32) (ix2 ⟨t.val * 2000 + p.val, row4_lt t p⟩ k) := by
  obtain ⟨e0, e1, -⟩ := idx_facts4 t
  unfold iblk4
  rw [View.read_apply]
  refine congrArg (V c main_v65 : Vec Ideal S50000x256 .f32) (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 256 + 1 * k.val = k.val; rw [e1]; omega

/-- The weights' block at any point is the whole matrix. -/
theorem w4_apply (c : Dev nD) (t : Fin cfg4.N) (k : Fin 256) (q : Fin 512) :
    (iblk4 V c 1 t : Vec Ideal S256x512 .f32) (ix2 k q) = (V c main_arg7 : Vec Ideal S256x512 .f32) (ix2 k q) := by
  obtain ⟨-, -, e2, e3, -⟩ := idx_facts4 t
  unfold iblk4
  rw [View.read_apply]
  refine congrArg (V c main_arg7 : Vec Ideal S256x512 .f32) (funext fun a => Fin.ext ?_)
  match a with
  | ⟨0, _⟩ => show win4_1.index t (0 : Fin 2) * 256 + 1 * k.val = k.val; rw [e2]; omega
  | ⟨1, _⟩ => show win4_1.index t (1 : Fin 2) * 512 + 1 * q.val = q.val; rw [e3]; omega

/-- The bias's block at any point is the whole vector. -/
theorem b4_apply (c : Dev nD) (t : Fin cfg4.N) (q : Fin 512) :
    (iblk4 V c 2 t : Vec Ideal S512 .f32) (ix1 q) = (V c main_arg8 : Vec Ideal S512 .f32) (ix1 q) := by
  obtain ⟨-, -, -, -, e4, -⟩ := idx_facts4 t
  unfold iblk4
  rw [View.read_apply]
  refine congrArg (V c main_arg8 : Vec Ideal S512 .f32) (funext fun a => Fin.ext ?_)
  match a with
  | ⟨0, _⟩ => show win4_2.index t (0 : Fin 1) * 512 + 1 * q.val = q.val; rw [e4]; omega

/-- The output's block at point `t` sits at rows `2000·t …`: its index `(p, q)` is the array's `(2000·t + p, q)`. -/
theorem out4_emb (t : Fin cfg4.N) (p : Fin 2000) (q : Fin 512) :
    ((cfg4.win 3).blk t).view.emb (ix2 p q) = (ix2 ⟨t.val * 2000 + p.val, row4_lt t p⟩ q : S50000x512.Idx) := by
  obtain ⟨-, -, -, -, -, e5, e6⟩ := idx_facts4 t
  refine funext fun a => Fin.ext ?_
  match a with
  | ⟨0, _⟩ => show win4_3.index t (0 : Fin 2) * 2000 + 1 * p.val = t.val * 2000 + p.val; rw [e5]; omega
  | ⟨1, _⟩ => show win4_3.index t (1 : Fin 2) * 512 + 1 * q.val = q.val; rw [e6]; omega

/-- What point `t` writes back is its block of the linear layer of the whole arrays: both sides at `(p, q)` are
    `Σ_k x(2000·t + p, k) · w(k, q) + b(q)`. -/
theorem flushed4_eq (c : Dev nD) (t : Fin cfg4.N) :
    (dat4 (F := Ideal) V c).flushed 3 t
      = ((cfg4.win 3).blk t).view.read (Elt Ideal) (Cert.Spec.dense₃ (F := Ideal) (V c main_v65) (V c main_arg7) (V c main_arg8)) := by
  show (cfg4.win 3).cut (grid4.coords t) ((dat4 (F := Ideal) V c).after 3 t) = _
  rw [after4_3]
  unfold out4_3
  rw [View.canon_unit_zero hz]
  simp only [View.ld_unit_zero (S := S2000x256) hz, View.ld_unit_zero (S := S256x512) hz, View.ld_unit_zero (S := S512) hz1]
  funext j
  obtain ⟨p, q, rfl⟩ : ∃ (p : Fin 2000) (q : Fin 512), j = ix2 p q := ⟨j 0, j 1, eq_ix2 (n0 := 2000) (n1 := 512) j⟩
  rw [View.read_apply, out4_emb t p q]
  show k4_pay1 (F := Ideal) (iblk4 V c 0 t) (iblk4 V c 1 t) (iblk4 V c 2 t) (ix2 p q) = _
  refine (pay4_apply _ _ _ p q).trans (Eq.trans ?_ (Cert.Spec.dense₃_apply _ _ _ _ q).symm)
  exact congrArg₂ (· + ·)
    (Finset.sum_congr rfl fun k _ => congrArg₂ (· * ·) (x4_apply V c t p k) (w4_apply V c t k q))
    (b4_apply V c t q)

/-- An index of the array is in point `t`'s block iff each coordinate is in the block's range on its axis. -/
theorem mem_blk4 (t : Fin cfg4.N) (i : S50000x512.Idx) :
    i ∈ ((cfg4.win 3).blk t).view.set ↔ ∀ a : Fin 2, win4_3.index t a * S2000x512.size a ≤ (i a).val ∧ (i a).val < win4_3.index t a * S2000x512.size a + S2000x512.size a := by
  show i ∈ ((View.whole main_v66).slice (win4_3.rect t)).set ↔ _
  rw [View.set_slice_whole, Rect.mem_set_unit]
  exact Iff.rfl

/-- Every row of the array lies in the block of the point `row / 2000`, with all its columns. -/
theorem cover4 (i : S50000x512.Idx) : ∃ t : Fin cfg4.N, (cfg4.win 3).flush t = true ∧ i ∈ ((cfg4.win 3).blk t).view.set := by
  have hi0 : (i 0).val < 50000 := (i 0).isLt
  have hi1 : (i 1).val < 512 := (i 1).isLt
  have hN : grid4.N = 25 := N_4
  let t : Fin cfg4.N := ⟨(i 0).val / 2000, by show (i 0).val / 2000 < grid4.N; rw [hN]; omega⟩
  obtain ⟨-, -, -, -, -, e5, e6⟩ := idx_facts4 t
  have ht : t.val = (i 0).val / 2000 := rfl
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; rw [e5, ht]; omega
  | ⟨1, _⟩ => show win4_3.index t (1 : Fin 2) * 512 ≤ (i 1).val ∧ (i 1).val < win4_3.index t (1 : Fin 2) * 512 + 512; rw [e6]; omega

/-- After the region the output array is the linear layer of the arrays the region found: every point writes its block of
    it, and the blocks cover the array. -/
theorem final4 (c : Dev nD) :
    (dat4 (F := Ideal) V c).arrAt 3 cfg4.N = Cert.Spec.dense₃ (F := Ideal) (V c main_v65) (V c main_arg7) (V c main_arg8) :=
  (dat4 (F := Ideal) V c).arrAt_eq_of_cover 3 (Cert.Spec.dense₃ (F := Ideal) (V c main_v65) (V c main_arg7) (V c main_arg8))
    (fun t _ => flushed4_eq V c t) cover4

end Cert.KernelIdeal.Dense4

end
-- ==== Proof.CombineRead.lean ====
/-
  The closing step of a graph convolution, read one entry at a time.

  Both combine bodies compute, on a block of 2000 rows by 256 features, `max((a + h ⊙ d) + b, 0)`: `a` the aggregated
  messages, `h` the node's own projection, `d` a column of 2000 self-loop weights spread along the features, `b` a row
  of 256 biases spread down the rows. The whole-array function `Cert.Spec.combine` is the same expression on 50000 rows.
  Here: the spreads read at an entry given by its coordinates (a column spread along its rows' features, a row spread
  down the rows, a vector seen as one row, a scalar spread everywhere), then each body's stored value at row `p`,
  feature `q` of the block, and the whole-array function at row `r`, feature `q`. Both read
  `max((a(·, q) + h(·, q) · d(·, 0)) + b(q), 0)` with the zero left as the word it is printed as.
-/
import proofs.«165484_j41601053229622_1_alg».proof.Proof.Gen.KernelIdeal.Frame
import proofs.«165484_j41601053229622_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Combine

open Cert.KernelIdeal Cert.KernelIdeal.Gen Idealize.ShloMosaic Idealize.ShloMosaic.TcCoe Idealize.SL.Sem
open Idealize.ShloMosaic.ValueIdx

/-! ## Spreads read at an entry -/

section Spreads
variable {α : Type}

/-- A column `[a, 1]` spread to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The same spread written with an axis map that keeps the row axis in place. -/
theorem broadcastInDim_a1_ab_apply {a b : ℕ} (dims : Fin 2 → Fin 2) (h : (⟨2, ![a, 1]⟩ : Shape).BroadcastsInDim ⟨2, ![a, b]⟩ dims)
    (hd : dims 0 = 0) (v : (⟨2, ![a, 1]⟩ : Shape).Idx → α) (p : Fin a) (q : Fin b) :
    broadcastInDim ⟨2, ![a, b]⟩ dims h v (ix2 p q) = v (ix2 p (0 : Fin 1)) := by
  refine broadcastInDim_apply dims h v (ix2 p q) (ix2 p (0 : Fin 1)) fun ax => ?_
  match ax with
  | ⟨0, _⟩ =>
    show p.val = if a = 1 then 0 else ((ix2 p q) (dims 0)).val
    rw [hd]
    show p.val = if a = 1 then 0 else p.val
    split
    · have := p.isLt; omega
    · rfl
  | ⟨1, _⟩ => rfl

/-- One row `[1, b]` spread down `a` rows, with an axis map that keeps the feature axis in place, reads at `(p, q)` the
    row's entry of feature `q`. -/
theorem broadcastInDim_1b_ab_apply {a b : ℕ} (dims : Fin 2 → Fin 2) (h : (⟨2, ![1, b]⟩ : Shape).BroadcastsInDim ⟨2, ![a, b]⟩ dims)
    (hd : dims 1 = 1) (v : (⟨2, ![1, b]⟩ : Shape).Idx → α) (p : Fin a) (q : Fin b) :
    broadcastInDim ⟨2, ![a, b]⟩ dims h v (ix2 p q) = v (ix2 (0 : Fin 1) q) := by
  refine broadcastInDim_apply dims h v (ix2 p q) (ix2 (0 : Fin 1) q) fun ax => ?_
  match ax with
  | ⟨0, _⟩ => rfl
  | ⟨1, _⟩ =>
    show q.val = if b = 1 then 0 else ((ix2 p q) (dims 1)).val
    rw [hd]
    show q.val = if b = 1 then 0 else q.val
    split
    · have := q.isLt; omega
    · rfl

/-- A vector `[b]` placed as the one row of `[1, b]` reads, at `(u, q)`, its entry `q`. -/
theorem broadcastInDim_b_1b_apply {b : ℕ} (dims : Fin 1 → Fin 2) (h : (⟨1, ![b]⟩ : Shape).BroadcastsInDim ⟨2, ![1, b]⟩ dims)
    (hd : dims 0 = 1) (v : (⟨1, ![b]⟩ : Shape).Idx → α) (u : Fin 1) (q : Fin b) :
    broadcastInDim ⟨2, ![1, b]⟩ dims h v (ix2 u q) = v (ix1 q) := by
  refine broadcastInDim_apply dims h v (ix2 u q) (ix1 q) fun ax => ?_
  match ax with
  | ⟨0, _⟩ =>
    show q.val = if b = 1 then 0 else ((ix2 u q) (dims 0)).val
    rw [hd]
    show q.val = if b = 1 then 0 else q.val
    split
    · have := q.isLt; omega
    · rfl

/-- A scalar spread over any shape reads the scalar everywhere. -/
theorem broadcastInDim_scalar_apply {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun ax => ax.elim0

end Spreads

/-! ## The stored value of each body at an entry of the block -/

/-- The first combine body's stored value at row `p`, feature `q`: `max((a + h·d) + b, 0)` of the four loaded blocks
    there, the column `d` read at row `p` and the row `b` at feature `q`. -/
theorem pay1_apply (a h : Vec Ideal S2000x256 .f32) (d : Vec Ideal S2000x1 .f32) (b : Vec Ideal S256 .f32) (p : Fin 2000) (q : Fin 256) :
    k1_pay1 (F := Ideal) a h d b (ix2 p q)
      = max ((a (ix2 p q) + h (ix2 p q) * d (ix2 p (0 : Fin 1))) + b (ix1 q)) (Ideal.ofBits .f32 0x00000000#32) := by
  unfold k1_pay1
  show max ((shapeCast S2000x256 a shapeCasts_S2000x256_S2000x256 (ix2 p q)
        + shapeCast S2000x256 h shapeCasts_S2000x256_S2000x256 (ix2 p q)
          * broadcastTo S2000x256 (shapeCast S2000x1 d shapeCasts_S2000x1_S2000x1) broadcasts_S2000x1_S2000x256 (ix2 p q))
      + broadcastTo S2000x256 (shapeCast S1x256 b shapeCasts_S256_S1x256) broadcasts_S1x256_S2000x256 (ix2 p q))
      (Ideal.ofBits .f32 0x00000000#32) = _
  rw [shapeCast_self, shapeCast_self, shapeCast_self]
  refine congrArg₂ max (congrArg₂ (· + ·) (congrArg₂ (· + ·) rfl (congrArg₂ (· * ·) rfl ?_)) ?_) rfl
  · exact broadcastTo_a1_ab_apply d _ p q
  · exact (broadcastTo_1b_ab_apply _ _ p q).trans (shapeCast_a_1a_apply b _ (0 : Fin 1) q)

/-- The second combine body's stored value at row `p`, feature `q`: the same expression of its four loaded blocks. -/
theorem pay3_apply (a h : Vec Ideal S2000x256 .f32) (d : Vec Ideal S2000x1 .f32) (b : Vec Ideal S256 .f32) (p : Fin 2000) (q : Fin 256) :
    k3_pay1 (F := Ideal) a h d b (ix2 p q)
      = max ((a (ix2 p q) + h (ix2 p q) * d (ix2 p (0 : Fin 1))) + b (ix1 q)) (Ideal.ofBits .f32 0x00000000#32) := by
  unfold k3_pay1
  show max ((shapeCast S2000x256 a shapeCasts_S2000x256_S2000x256 (ix2 p q)
        + shapeCast S2000x256 h shapeCasts_S2000x256_S2000x256 (ix2 p q)
          * broadcastTo S2000x256 (shapeCast S2000x1 d shapeCasts_S2000x1_S2000x1) broadcasts_S2000x1_S2000x256 (ix2 p q))
      + broadcastTo S2000x256 (shapeCast S1x256 b shapeCasts_S256_S1x256) broadcasts_S1x256_S2000x256 (ix2 p q))
      (Ideal.ofBits .f32 0x00000000#32) = _
  rw [shapeCast_self, shapeCast_self, shapeCast_self]
  refine congrArg₂ max (congrArg₂ (· + ·) (congrArg₂ (· + ·) rfl (congrArg₂ (· * ·) rfl ?_)) ?_) rfl
  · exact broadcastTo_a1_ab_apply d _ p q
  · exact (broadcastTo_1b_ab_apply _ _ p q).trans (shapeCast_a_1a_apply b _ (0 : Fin 1) q)

/-! ## The whole-array function at an entry -/

/-- The whole-array closing step at row `r`, feature `q`: `max((a + h·d) + b, 0)` there, the column `d` read at row `r`
    and the bias row `b` at feature `q`. -/
theorem combine_apply (a h : (⟨S50000x256, .f32⟩ : BufTy).Contents (Elt Ideal)) (d : (⟨S50000x1, .f32⟩ : BufTy).Contents (Elt Ideal))
    (b : (⟨S256, .f32⟩ : BufTy).Contents (Elt Ideal)) (r : Fin 50000) (q : Fin 256) :
    Cert.Spec.combine (F := Ideal) a h d b (ix2 r q)
      = max ((a (ix2 r q) + h (ix2 r q) * d (ix2 r (0 : Fin 1))) + b (ix1 q)) (Ideal.ofBits .f32 0x00000000#32) := by
  unfold Cert.Spec.combine Cert.Spec.biasRows256
  show max ((a (ix2 r q) + h (ix2 r q) * broadcastInDim S50000x256 ![0, 1] _ d (ix2 r q))
      + broadcastInDim S50000x256 ![0, 1] _ (broadcastInDim S1x256 ![1] _ b) (ix2 r q))
      (broadcastInDim S50000x256 ![] _ (constant (F := Ideal) S_ .f32 0x00000000#32) (ix2 r q)) = _
  refine congrArg₂ max (congrArg₂ (· + ·) (congrArg₂ (· + ·) rfl (congrArg₂ (· * ·) rfl ?_)) ?_) ?_
  · exact broadcastInDim_a1_ab_apply _ _ rfl d r q
  · exact (broadcastInDim_1b_ab_apply _ _ rfl _ r q).trans (broadcastInDim_b_1b_apply _ _ rfl b (0 : Fin 1) q)
  · exact broadcastInDim_scalar_apply _ _ _ _

end Cert.KernelIdeal.Combine

end
-- ==== Proof.Combine1.lean ====
/-
  The first graph convolution's closing step as ONE function of whole arrays.

  The call walks 25 blocks of 2000 rows. At block `t` it loads rows `2000·t … 2000·t + 1999` of the messages `a`, of the
  projection `h` and of the weight column `d`, and the whole bias row `b`; it stores `max((a + h ⊙ d) + b, 0)` and writes
  the block back to the same rows of the result. So entry `(p, q)` of what block `t` writes depends on row `2000·t + p`
  of `a`, `h`, `d` and on entry `q` of `b` only, and equals the whole-array function `Cert.Spec.combine` at row
  `2000·t + p`, feature `q`: both sides read the same expression of the same four entries. Row `r` of the result lies in
  block `r / 2000`, so the 25 blocks cover the array, and the result array ends holding `Cert.Spec.combine` of the four
  input arrays as the call finds them.
-/
import proofs.«165484_j41601053229622_1_alg».proof.Proof.CombineRead

set_option maxRecDepth 16384

noncomputable section

namespace Cert.KernelIdeal.Combine

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on two axes, however spelt. -/
theorem zero2_1 : (![0, 0] : Fin 2 → Nat) = fun _ => 0 := funext fun a => by fin_cases a <;> rfl
/-- Zero offset on one axis, however spelt. -/
theorem zero1_1 : (![0] : Fin 1 → Nat) = fun _ => 0 := funext fun a => by fin_cases a <;> rfl

/-- The block index maps over the 25 points: the three row-tiled inputs and the output sit at block row `t`, block column
    0; the bias row is always block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-! ## Each input block as rows of its array -/

/-- Entry `(p, q)` of the messages' block at point `t` is entry `(2000·t + p, q)` of the array. -/
theorem blkA1_apply (c : Dev nD) (t : Fin cfg1.N) (p : Fin 2000) (q : Fin 256) (r : Fin 50000) (hr : r.val = t.val * 2000 + p.val) :
    (iblk1 V c 0 t : Vec Ideal S2000x256 .f32) (ix2 p q) = (V c main_v48 : S50000x256.Idx → Elt Ideal .f32) (ix2 r q) := by
  obtain ⟨e0, e1, -⟩ := idx_facts1 t
  show V c main_v48 (((cfg1.win 0).blk t).view.emb (ix2 p q)) = _
  refine congrArg (V c main_v48) (funext fun a => Fin.ext ?_)
  match a with
  | ⟨0, _⟩ => show win1_0.index t (0 : Fin 2) * 2000 + 1 * p.val = r.val; omega
  | ⟨1, _⟩ => show win1_0.index t (1 : Fin 2) * 256 + 1 * q.val = q.val; omega

/-- Entry `(p, q)` of the projection's block at point `t` is entry `(2000·t + p, q)` of the array. -/
theorem blkH1_apply (c : Dev nD) (t : Fin cfg1.N) (p : Fin 2000) (q : Fin 256) (r : Fin 50000) (hr : r.val = t.val * 2000 + p.val) :
    (iblk1 V c 1 t : Vec Ideal S2000x256 .f32) (ix2 p q) = (V c main_v35 : S50000x256.Idx → Elt Ideal .f32) (ix2 r q) := by
  obtain ⟨-, -, e0, e1, -⟩ := idx_facts1 t
  show V c main_v35 (((cfg1.win 1).blk t).view.emb (ix2 p q)) = _
  refine congrArg (V c main_v35) (funext fun a => Fin.ext ?_)
  match a with
  | ⟨0, _⟩ => show win1_1.index t (0 : Fin 2) * 2000 + 1 * p.val = r.val; omega
  | ⟨1, _⟩ => show win1_1.index t (1 : Fin 2) * 256 + 1 * q.val = q.val; omega

/-- Entry `(p, 0)` of the weight column's block at point `t` is entry `(2000·t + p, 0)` of the column. -/
theorem blkD1_apply (c : Dev nD) (t : Fin cfg1.N) (p : Fin 2000) (r : Fin 50000) (hr : r.val = t.val * 2000 + p.val) :
    (iblk1 V c 2 t : Vec Ideal S2000x1 .f32) (ix2 p (0 : Fin 1)) = (V c main_v33 : S50000x1.Idx → Elt Ideal .f32) (ix2 r (0 : Fin 1)) := by
  obtain ⟨-, -, -, -, e0, e1, -⟩ := idx_facts1 t
  show V c main_v33 (((cfg1.win 2).blk t).view.emb (ix2 p (0 : Fin 1))) = _
  refine congrArg (V c main_v33) (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega

/-- Entry `q` of the bias row's block, at every point, is entry `q` of the row. -/
theorem blkB1_apply (c : Dev nD) (t : Fin cfg1.N) (q : Fin 256) :
    (iblk1 V c 3 t : Vec Ideal S256 .f32) (ix1 q) = (V c main_arg4 : S256.Idx → Elt Ideal .f32) (ix1 q) := by
  obtain ⟨-, -, -, -, -, -, e0, -⟩ := idx_facts1 t
  show V c main_arg4 (((cfg1.win 3).blk t).view.emb (ix1 q)) = _
  refine congrArg (V c main_arg4) (funext fun a => Fin.ext ?_)
  match a with
  | ⟨0, _⟩ => show win1_3.index t (0 : Fin 1) * 256 + 1 * q.val = q.val; omega

/-! ## What a point writes back, the cover, the result array -/

/-- What point `t` writes back is block `t` of the whole-array function of the four input arrays. -/
theorem flushed1_eq (c : Dev nD) (t : Fin cfg1.N) :
    (dat1 (F := Ideal) V c).flushed 4 t
      = ((cfg1.win 4).blk t).view.read (Elt Ideal) (Cert.Spec.combine (V c main_v48) (V c main_v35) (V c main_v33) (V c main_arg4)) := by
  show (cfg1.win 4).cut (grid1.coords t) ((dat1 V c).after 4 t) = _
  rw [after1_4]
  unfold out1_4
  rw [View.canon_unit_zero zero2_1]
  simp only [View.ld_unit_zero (S := S2000x256) zero2_1, View.ld_unit_zero (S := S2000x1) zero2_1, View.ld_unit_zero (S := S256) zero1_1]
  have hN : t.val < 25 := lt_of_lt_of_eq t.isLt (N_1 : cfg1.N = 25)
  obtain ⟨-, -, -, -, -, -, -, e0, e1⟩ := idx_facts1 t
  funext j
  obtain ⟨p, q, rfl⟩ : ∃ (p : Fin 2000) (q : Fin 256), j = ix2 p q := ⟨j 0, j 1, eq_ix2 j⟩
  have hemb : ((cfg1.win 4).blk t).view.emb (ix2 p q) = ix2 (⟨t.val * 2000 + p.val, by omega⟩ : Fin 50000) q := by
    funext a; apply Fin.ext
    match a with
    | ⟨0, _⟩ => show win1_4.index t (0 : Fin 2) * 2000 + 1 * p.val = t.val * 2000 + p.val; omega
    | ⟨1, _⟩ => show win1_4.index t (1 : Fin 2) * 256 + 1 * q.val = q.val; omega
  show k1_pay1 (iblk1 V c 0 t) (iblk1 V c 1 t) (iblk1 V c 2 t) (iblk1 V c 3 t) (ix2 p q)
    = Cert.Spec.combine (V c main_v48) (V c main_v35) (V c main_v33) (V c main_arg4) (((cfg1.win 4).blk t).view.emb (ix2 p q))
  rw [hemb]
  refine (pay1_apply _ _ _ _ p q).trans (Eq.trans ?_ (combine_apply _ _ _ _ _ q).symm)
  refine congrArg₂ max (congrArg₂ (· + ·) (congrArg₂ (· + ·) ?_ (congrArg₂ (· * ·) ?_ ?_)) ?_) rfl
  · exact blkA1_apply V c t p q _ rfl
  · exact blkH1_apply V c t p q _ rfl
  · exact blkD1_apply V c t p _ rfl
  · exact blkB1_apply V c t q

/-- An entry of the result is in point `t`'s block iff each coordinate is in the block's range on its axis. -/
theorem mem_blk1 (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v49).slice (win1_4.rect t)).set ↔ _
  rw [View.set_slice_whole, Rect.mem_set_unit]
  exact Iff.rfl

/-- Every entry of the result is in some point's block: row `r` in the block of point `r / 2000`. -/
theorem cover1 (i : S50000x256.Idx) : ∃ t : Fin cfg1.N, (cfg1.win 4).flush t = true ∧ i ∈ ((cfg1.win 4).blk t).view.set := by
  have h0 : (i 0).val < 50000 := idx2_lt0 i
  have h1 : (i 1).val < 256 := idx2_lt1 i
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, e0, e1⟩ := idx_facts1 t
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- THE RESULT ARRAY after the call: the whole-array closing step of the four input arrays as the call finds them. -/
theorem final1 (c : Dev nD) :
    (dat1 (F := Ideal) V c).arrAt 4 cfg1.N = Cert.Spec.combine (V c main_v48) (V c main_v35) (V c main_v33) (V c main_arg4) :=
  (dat1 V c).arrAt_eq_of_cover 4 (Cert.Spec.combine (V c main_v48) (V c main_v35) (V c main_v33) (V c main_arg4))
    (fun t _ => flushed1_eq V c t) cover1

end Cert.KernelIdeal.Combine

end
-- ==== Proof.Combine3.lean ====
/-
  The second graph convolution's closing step as ONE function of whole arrays.

  The call walks 25 blocks of 2000 rows. At block `t` it loads rows `2000·t … 2000·t + 1999` of the messages `a`, of the
  projection `h` and of the weight column `d`, and the whole bias row `b`; it stores `max((a + h ⊙ d) + b, 0)` and writes
  the block back to the same rows of the result. So entry `(p, q)` of what block `t` writes depends on row `2000·t + p`
  of `a`, `h`, `d` and on entry `q` of `b` only, and equals the whole-array function `Cert.Spec.combine` at row
  `2000·t + p`, feature `q`: both sides read the same expression of the same four entries. Row `r` of the result lies in
  block `r / 2000`, so the 25 blocks cover the array, and the result array ends holding `Cert.Spec.combine` of the four
  input arrays as the call finds them.
-/
import proofs.«165484_j41601053229622_1_alg».proof.Proof.CombineRead

set_option maxRecDepth 16384

noncomputable section

namespace Cert.KernelIdeal.Combine

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on two axes, however spelt. -/
theorem zero2_3 : (![0, 0] : Fin 2 → Nat) = fun _ => 0 := funext fun a => by fin_cases a <;> rfl
/-- Zero offset on one axis, however spelt. -/
theorem zero1_3 : (![0] : Fin 1 → Nat) = fun _ => 0 := funext fun a => by fin_cases a <;> rfl

/-- The block index maps over the 25 points: the three row-tiled inputs and the output sit at block row `t`, block column
    0; the bias row is always block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-! ## Each input block as rows of its array -/

/-- Entry `(p, q)` of the messages' block at point `t` is entry `(2000·t + p, q)` of the array. -/
theorem blkA3_apply (c : Dev nD) (t : Fin cfg3.N) (p : Fin 2000) (q : Fin 256) (r : Fin 50000) (hr : r.val = t.val * 2000 + p.val) :
    (iblk3 V c 0 t : Vec Ideal S2000x256 .f32) (ix2 p q) = (V c main_v64 : S50000x256.Idx → Elt Ideal .f32) (ix2 r q) := by
  obtain ⟨e0, e1, -⟩ := idx_facts3 t
  show V c main_v64 (((cfg3.win 0).blk t).view.emb (ix2 p q)) = _
  refine congrArg (V c main_v64) (funext fun a => Fin.ext ?_)
  match a with
  | ⟨0, _⟩ => show win3_0.index t (0 : Fin 2) * 2000 + 1 * p.val = r.val; omega
  | ⟨1, _⟩ => show win3_0.index t (1 : Fin 2) * 256 + 1 * q.val = q.val; omega

/-- Entry `(p, q)` of the projection's block at point `t` is entry `(2000·t + p, q)` of the array. -/
theorem blkH3_apply (c : Dev nD) (t : Fin cfg3.N) (p : Fin 2000) (q : Fin 256) (r : Fin 50000) (hr : r.val = t.val * 2000 + p.val) :
    (iblk3 V c 1 t : Vec Ideal S2000x256 .f32) (ix2 p q) = (V c main_v51 : S50000x256.Idx → Elt Ideal .f32) (ix2 r q) := by
  obtain ⟨-, -, e0, e1, -⟩ := idx_facts3 t
  show V c main_v51 (((cfg3.win 1).blk t).view.emb (ix2 p q)) = _
  refine congrArg (V c main_v51) (funext fun a => Fin.ext ?_)
  match a with
  | ⟨0, _⟩ => show win3_1.index t (0 : Fin 2) * 2000 + 1 * p.val = r.val; omega
  | ⟨1, _⟩ => show win3_1.index t (1 : Fin 2) * 256 + 1 * q.val = q.val; omega

/-- Entry `(p, 0)` of the weight column's block at point `t` is entry `(2000·t + p, 0)` of the column. -/
theorem blkD3_apply (c : Dev nD) (t : Fin cfg3.N) (p : Fin 2000) (r : Fin 50000) (hr : r.val = t.val * 2000 + p.val) :
    (iblk3 V c 2 t : Vec Ideal S2000x1 .f32) (ix2 p (0 : Fin 1)) = (V c main_v33 : S50000x1.Idx → Elt Ideal .f32) (ix2 r (0 : Fin 1)) := by
  obtain ⟨-, -, -, -, e0, e1, -⟩ := idx_facts3 t
  show V c main_v33 (((cfg3.win 2).blk t).view.emb (ix2 p (0 : Fin 1))) = _
  refine congrArg (V c main_v33) (funext fun a => Fin.ext ?_)
  match a with
  | ⟨0, _⟩ => show win3_2.index t (0 : Fin 2) * 2000 + 1 * p.val = r.val; omega
  | ⟨1, _⟩ => show win3_2.index t (1 : Fin 2) * 1 + 1 * 0 = 0; omega

/-- Entry `q` of the bias row's block, at every point, is entry `q` of the row. -/
theorem blkB3_apply (c : Dev nD) (t : Fin cfg3.N) (q : Fin 256) :
    (iblk3 V c 3 t : Vec Ideal S256 .f32) (ix1 q) = (V c main_arg6 : S256.Idx → Elt Ideal .f32) (ix1 q) := by
  obtain ⟨-, -, -, -, -, -, e0, -⟩ := idx_facts3 t
  show V c main_arg6 (((cfg3.win 3).blk t).view.emb (ix1 q)) = _
  refine congrArg (V c main_arg6) (funext fun a => Fin.ext ?_)
  match a with
  | ⟨0, _⟩ => show win3_3.index t (0 : Fin 1) * 256 + 1 * q.val = q.val; omega

/-! ## What a point writes back, the cover, the result array -/

/-- What point `t` writes back is block `t` of the whole-array function of the four input arrays. -/
theorem flushed3_eq (c : Dev nD) (t : Fin cfg3.N) :
    (dat3 (F := Ideal) V c).flushed 4 t
      = ((cfg3.win 4).blk t).view.read (Elt Ideal) (Cert.Spec.combine (V c main_v64) (V c main_v51) (V c main_v33) (V c main_arg6)) := by
  show (cfg3.win 4).cut (grid3.coords t) ((dat3 V c).after 4 t) = _
  rw [after3_4]
  unfold out3_4
  rw [View.canon_unit_zero zero2_3]
  simp only [View.ld_unit_zero (S := S2000x256) zero2_3, View.ld_unit_zero (S := S2000x1) zero2_3, View.ld_unit_zero (S := S256) zero1_3]
  have hN : t.val < 25 := lt_of_lt_of_eq t.isLt (N_3 : cfg3.N = 25)
  obtain ⟨-, -, -, -, -, -, -, e0, e1⟩ := idx_facts3 t
  funext j
  obtain ⟨p, q, rfl⟩ : ∃ (p : Fin 2000) (q : Fin 256), j = ix2 p q := ⟨j 0, j 1, eq_ix2 j⟩
  have hemb : ((cfg3.win 4).blk t).view.emb (ix2 p q) = ix2 (⟨t.val * 2000 + p.val, by omega⟩ : Fin 50000) q := by
    funext a; apply Fin.ext
    match a with
    | ⟨0, _⟩ => show win3_4.index t (0 : Fin 2) * 2000 + 1 * p.val = t.val * 2000 + p.val; omega
    | ⟨1, _⟩ => show win3_4.index t (1 : Fin 2) * 256 + 1 * q.val = q.val; omega
  show k3_pay1 (iblk3 V c 0 t) (iblk3 V c 1 t) (iblk3 V c 2 t) (iblk3 V c 3 t) (ix2 p q)
    = Cert.Spec.combine (V c main_v64) (V c main_v51) (V c main_v33) (V c main_arg6) (((cfg3.win 4).blk t).view.emb (ix2 p q))
  rw [hemb]
  refine (pay3_apply _ _ _ _ p q).trans (Eq.trans ?_ (combine_apply _ _ _ _ _ q).symm)
  refine congrArg₂ max (congrArg₂ (· + ·) (congrArg₂ (· + ·) ?_ (congrArg₂ (· * ·) ?_ ?_)) ?_) rfl
  · exact blkA3_apply V c t p q _ rfl
  · exact blkH3_apply V c t p q _ rfl
  · exact blkD3_apply V c t p _ rfl
  · exact blkB3_apply V c t q

/-- An entry of the result is in point `t`'s block iff each coordinate is in the block's range on its axis. -/
theorem mem_blk3 (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v65).slice (win3_4.rect t)).set ↔ _
  rw [View.set_slice_whole, Rect.mem_set_unit]
  exact Iff.rfl

/-- Every entry of the result is in some point's block: row `r` in the block of point `r / 2000`. -/
theorem cover3 (i : S50000x256.Idx) : ∃ t : Fin cfg3.N, (cfg3.win 4).flush t = true ∧ i ∈ ((cfg3.win 4).blk t).view.set := by
  have h0 : (i 0).val < 50000 := idx2_lt0 i
  have h1 : (i 1).val < 256 := idx2_lt1 i
  obtain ⟨t, ht⟩ : ∃ t : Fin cfg3.N, t.val = (i 0).val / 2000 :=
    ⟨⟨(i 0).val / 2000, by rw [show cfg3.N = 25 from N_3]; omega⟩, rfl⟩
  obtain ⟨-, -, -, -, -, -, -, e0, e1⟩ := idx_facts3 t
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 256 ≤ (i 1).val ∧ (i 1).val < win3_4.index t (1 : Fin 2) * 256 + 256; omega

/-- THE RESULT ARRAY after the call: the whole-array closing step of the four input arrays as the call finds them. -/
theorem final3 (c : Dev nD) :
    (dat3 (F := Ideal) V c).arrAt 4 cfg3.N = Cert.Spec.combine (V c main_v64) (V c main_v51) (V c main_v33) (V c main_arg6) :=
  (dat3 V c).arrAt_eq_of_cover 4 (Cert.Spec.combine (V c main_v64) (V c main_v51) (V c main_v33) (V c main_arg6))
    (fun t _ => flushed3_eq V c t) cover3

end Cert.KernelIdeal.Combine

end
-- ==== Proof.lean ====
/-
  The certificate of a two-layer graph-convolution network: a Pallas implementation (three row-tiled matrix-product calls
  and two fused "self-loop + bias + rectifier" calls, with the irregular gather / scatter-add aggregation between them on
  the host) against its jnp reference, equal as extended reals.

  THE MATHEMATICS. With `d = (1 + in-degree)^(-1/2)` per node, one convolution of projected features `h` is
  `max((Σ_{edges (r → c)} d_r d_c h_r  +  d² ⊙ h) + b, 0)`; the network is project, convolve, project, convolve, and a last
  linear layer. The two programs differ in three ways, none of which changes the value over the extended reals:
    * the kernel multiplies matrices block of rows by block of rows, each block against the whole weight matrix; a row of a
      product depends on that row of the left factor only, so the blocks tile the product (`Dense0/2/4`);
    * the kernel's first two projections add a bias row of zeros, and `y + 0 = y` for every extended real `y` (`Net`);
    * the kernel computes the degree normalisation once and the reference once per layer: one function of the edge list.
  Everything else — the joining of the two feature arrays, the index wrap, the gathers and scatter-adds, the self-loop term,
  the bias, the rectifier — is the same host operation on both sides (`Fold`, `RefNet`), and the fused calls are those
  operations block by block (`Combine1/3`). No step needs the inputs to be finite.

  THE CLAIMS. The three frames: the two kernel programs by their generated frame, the reference by its generated run with
  the result dropped. `preserves`: the idealization rewrote nothing. `algebraic`: the kernel's run with its result buffer read
  at the last segment boundary (`KRun`), walked back through @main to the network of the arguments (`Fold.result`), beside
  the reference's run, whose result term is the same network (`RefNet.result_eq`) of arguments that agree.
-/
import proofs.«165484_j41601053229622_1_alg».proof.Defs
import proofs.«165484_j41601053229622_1_alg».proof.Proof.Gen.Kernel
import proofs.«165484_j41601053229622_1_alg».proof.Proof.Gen.Kernel.Frame
import proofs.«165484_j41601053229622_1_alg».proof.Proof.Gen.KernelIdeal
import proofs.«165484_j41601053229622_1_alg».proof.Proof.Gen.KernelIdeal.Frame
import proofs.«165484_j41601053229622_1_alg».proof.Proof.Gen.ReferenceIdeal
import proofs.«165484_j41601053229622_1_alg».proof.Proof.Gen.ReferenceIdeal.Run
import proofs.«165484_j41601053229622_1_alg».proof.Proof.Gen.Pre_finite_inputs
import proofs.«165484_j41601053229622_1_alg».proof.Proof.KRun
import proofs.«165484_j41601053229622_1_alg».proof.Proof.Fold
import proofs.«165484_j41601053229622_1_alg».proof.Proof.RefNet
import proofs.«165484_j41601053229622_1_alg».proof.Proof.Dense0
import proofs.«165484_j41601053229622_1_alg».proof.Proof.Dense2
import proofs.«165484_j41601053229622_1_alg».proof.Proof.Dense4
import proofs.«165484_j41601053229622_1_alg».proof.Proof.Combine1
import proofs.«165484_j41601053229622_1_alg».proof.Proof.Combine3

noncomputable section

namespace Cert.Proof

open Idealize.ShloMosaic Idealize.ShloMosaic.TcCoe Idealize.SL.Sem

/-- What each of the five calls computes on whole arrays, call by call. -/
theorem regionValues : Cert.KernelIdeal.Fold.RegionValues :=
  ⟨Cert.KernelIdeal.Dense0.final0, Cert.KernelIdeal.Combine.final1, Cert.KernelIdeal.Dense2.final2,
   Cert.KernelIdeal.Combine.final3, Cert.KernelIdeal.Dense4.final4⟩

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the (agreeing) argument arrays in their result buffer. -/
theorem algebraic : Cert.algebraic_KernelIdeal_ReferenceIdeal := by
  intro m ρ m' ρ' _ hagree
  refine ⟨fun c => Cert.Spec.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Fold.result m ρ regionValues c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq m' c).trans ?_
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
